-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S150000x64 : Shape := ⟨2, ![150000, 64]⟩
abbrev S1200000 : Shape := ⟨1, ![1200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S150000x64 : S_.BroadcastsInDim S150000x64 (![] : Fin 0 → Fin S150000x64.rank)
  reducesTo_S150000x64_S_d0_1 : S150000x64.ReducesTo [0, 1] S_
  bcast_S_S1200000 : S_.BroadcastsInDim S1200000 (![] : Fin 0 → Fin S1200000.rank)
  reducesTo_S1200000_S_d0 : S1200000.ReducesTo [0] S_

variable [Facts]

def fn {F : FTy → Type} [FloatOps F] (main_arg0 : FVec F S100000x64 .f32) (main_arg1 : FVec F S150000x64 .f32) (main_arg2 : IVec S1200000 32) (main_arg3 : IVec S1200000 32) (main_arg4 : FVec F S1200000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S150000x64 .f32 := Host.absf main_arg1
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  let main_v9 : FVec F S1200000 .f32 := Host.absf main_arg4
  let main_cst_2 : FVec F S_ .f32 := constant S_ .f32 0x7F800000#32
  let main_v10 : FVec F S1200000 .f32 := broadcastInDim S1200000 ![] bcast_S_S1200000 main_cst_2
  let main_v11 : IVec S1200000 1 := cmpf .olt main_v9 main_v10
  let main_c_3 : IVec S_ 1 := constantI S_ 1 1#1
  let main_v12 : IVec S_ 1 := (fun x v => Host.reduce IntOp.andi x v reducesTo_S1200000_S_d0 h_S_) main_v11 main_c_3
  let main_v13 : IVec S_ 1 := andi main_v8 main_v12
  main_v13
-- ==== Kernel.lean ====
abbrev S100000x64 : Shape := ⟨2, ![100000, 64]⟩
abbrev S150000x64 : Shape := ⟨2, ![150000, 64]⟩
abbrev S1200000 : Shape := ⟨1, ![1200000]⟩
abbrev S250000x64 : Shape := ⟨2, ![250000, 64]⟩
abbrev S_ : Shape := ⟨0, ![]⟩
abbrev S1204224 : Shape := ⟨1, ![1204224]⟩
abbrev S1204224x1 : Shape := ⟨2, ![1204224, 1]⟩
abbrev S1204224x64 : Shape := ⟨2, ![1204224, 64]⟩
abbrev S8192 : Shape := ⟨1, ![8192]⟩
abbrev S8192x64 : Shape := ⟨2, ![8192, 64]⟩
abbrev S8192x1 : Shape := ⟨2, ![8192, 1]⟩
abbrev S5000x64 : Shape := ⟨2, ![5000, 64]⟩

abbrev nBuf : Space → Nat
  | .hbm => 60
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S150000x64, .f32⟩
  | .hbm, ⟨2, _⟩ => ⟨S1200000, .i32⟩
  | .hbm, ⟨3, _⟩ => ⟨S1200000, .i32⟩
  | .hbm, ⟨4, _⟩ => ⟨S1200000, .f32⟩
  | .hbm, ⟨5, _⟩ => ⟨S250000x64, .f32⟩
  | .hbm, ⟨6, _⟩ => ⟨S_, .i32⟩
  | .hbm, ⟨7, _⟩ => ⟨S_, .i32⟩
  | .hbm, ⟨8, _⟩ => ⟨S1204224, .i32⟩
  | .hbm, ⟨9, _⟩ => ⟨S_, .i32⟩
  | .hbm, ⟨10, _⟩ => ⟨S_, .i32⟩
  | .hbm, ⟨11, _⟩ => ⟨S1204224, .i32⟩
  | .hbm, ⟨12, _⟩ => ⟨S_, .i32⟩
  | .hbm, ⟨13, _⟩ => ⟨S_, .f32⟩
  | .hbm, ⟨14, _⟩ => ⟨S1204224, .f32⟩
  | .hbm, ⟨15, _⟩ => ⟨S_, .i32⟩
  | .hbm, ⟨16, _⟩ => ⟨S1204224, .i32⟩
  | .hbm, ⟨17, _⟩ => ⟨S1204224, .i1⟩
  | .hbm, ⟨18, _⟩ => ⟨S_, .i32⟩
  | .hbm, ⟨19, _⟩ => ⟨S1204224, .i32⟩
  | .hbm, ⟨20, _⟩ => ⟨S1204224, .i32⟩
  | .hbm, ⟨21, _⟩ => ⟨S1204224, .i32⟩
  | .hbm, ⟨22, _⟩ => ⟨S1204224x1, .i32⟩
  | .hbm, ⟨23, _⟩ => ⟨S1204224x64, .f32⟩
  | .hbm, ⟨24, _⟩ => ⟨S1204224x64, .f32⟩
  | .hbm, ⟨25, _⟩ => ⟨S_, .f32⟩
  | .hbm, ⟨26, _⟩ => ⟨S250000x64, .f32⟩
  | .hbm, ⟨27, _⟩ => ⟨S1204224x1, .i32⟩
  | .hbm, ⟨28, _⟩ => ⟨S250000x64, .f32⟩
  | .hbm, ⟨29, _⟩ => ⟨S250000x64, .f32⟩
  | .hbm, ⟨30, _⟩ => ⟨S_, .i32⟩
  | .hbm, ⟨31, _⟩ => ⟨S1204224, .i32⟩
  | .hbm, ⟨32, _⟩ => ⟨S1204224, .i1⟩
  | .hbm, ⟨33, _⟩ => ⟨S_, .i32⟩
  | .hbm, ⟨34, _⟩ => ⟨S1204224, .i32⟩
  | .hbm, ⟨35, _⟩ => ⟨S1204224, .i32⟩
  | .hbm, ⟨36, _⟩ => ⟨S1204224, .i32⟩
  | .hbm, ⟨37, _⟩ => ⟨S1204224x1, .i32⟩
  | .hbm, ⟨38, _⟩ => ⟨S1204224x64, .f32⟩
  | .hbm, ⟨39, _⟩ => ⟨S1204224x64, .f32⟩
  | .hbm, ⟨40, _⟩ => ⟨S_, .f32⟩
  | .hbm, ⟨41, _⟩ => ⟨S250000x64, .f32⟩
  | .hbm, ⟨42, _⟩ => ⟨S1204224x1, .i32⟩
  | .hbm, ⟨43, _⟩ => ⟨S250000x64, .f32⟩
  | .hbm, ⟨44, _⟩ => ⟨S250000x64, .f32⟩
  | .hbm, ⟨45, _⟩ => ⟨S_, .i32⟩
  | .hbm, ⟨46, _⟩ => ⟨S1204224, .i32⟩
  | .hbm, ⟨47, _⟩ => ⟨S1204224, .i1⟩
  | .hbm, ⟨48, _⟩ => ⟨S_, .i32⟩
  | .hbm, ⟨49, _⟩ => ⟨S1204224, .i32⟩
  | .hbm, ⟨50, _⟩ => ⟨S1204224, .i32⟩
  | .hbm, ⟨51, _⟩ => ⟨S1204224, .i32⟩
  | .hbm, ⟨52, _⟩ => ⟨S1204224x1, .i32⟩
  | .hbm, ⟨53, _⟩ => ⟨S1204224x64, .f32⟩
  | .hbm, ⟨54, _⟩ => ⟨S1204224x64, .f32⟩
  | .hbm, ⟨55, _⟩ => ⟨S_, .f32⟩
  | .hbm, ⟨56, _⟩ => ⟨S250000x64, .f32⟩
  | .hbm, ⟨57, _⟩ => ⟨S1204224x1, .i32⟩
  | .hbm, ⟨58, _⟩ => ⟨S250000x64, .f32⟩
  | .hbm, ⟨59, _⟩ => ⟨S250000x64, .f32⟩
  | .local _ .vmem, ⟨0, _⟩ => ⟨S8192, .f32⟩
  | .local _ .vmem, ⟨1, _⟩ => ⟨S8192, .f32⟩
  | .local _ .vmem, ⟨2, _⟩ => ⟨S8192x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S8192, .f32⟩
  | .local _ .vmem, ⟨13, _⟩ => ⟨S8192, .f32⟩
  | .local _ .vmem, ⟨14, _⟩ => ⟨S8192x64, .f32⟩
  | .local _ .vmem, ⟨15, _⟩ => ⟨S8192x64, .f32⟩
  | .local _ .vmem, ⟨16, _⟩ => ⟨S8192x64, .f32⟩
  | .local _ .vmem, ⟨17, _⟩ => ⟨S8192x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S8192, .f32⟩
  | .local _ .vmem, ⟨25, _⟩ => ⟨S8192, .f32⟩
  | .local _ .vmem, ⟨26, _⟩ => ⟨S8192x64, .f32⟩
  | .local _ .vmem, ⟨27, _⟩ => ⟨S8192x64, .f32⟩
  | .local _ .vmem, ⟨28, _⟩ => ⟨S8192x64, .f32⟩
  | .local _ .vmem, ⟨29, _⟩ => ⟨S8192x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_c_2 : Ref sig .tc := ⟨.hbm, 15, rfl⟩
abbrev main_v4 : Ref sig .tc := ⟨.hbm, 16, rfl⟩
abbrev main_v5 : Ref sig .tc := ⟨.hbm, 17, rfl⟩
abbrev main_c_3 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![147], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![147], ![false]⟩

def cc2_transform_0 (i : grid2.Coords) : Fin 1 → Nat :=
  let arg0 : BitVec 32 := BitVec.ofNat 32 (i 0).val
  let c0_i32 : BitVec 32 := 0#32
  ![arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![147], ![false]⟩

def cc4_transform_0 (i : grid4.Coords) : Fin 1 → Nat :=
  let arg0 : BitVec 32 := BitVec.ofNat 32 (i 0).val
  let c0_i32 : BitVec 32 := 0#32
  ![arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  concatenates_S100000x64_S150000x64_S250000x64_d0 : Shape.Concatenates [S100000x64, S150000x64] S250000x64 0
  pads_S1200000_S1204224_042240 : S1200000.Pads (![0] : Fin 1 → Nat) ![4224] ![0] S1204224
  h_S_ : 0 < S_.numel
  bcast_S_S1204224 : S_.BroadcastsInDim S1204224 (![] : Fin 0 → Fin S1204224.rank)
  bcast_S1204224_S1204224x1_0 : S1204224.BroadcastsInDim S1204224x1 (![0] : Fin 1 → Fin S1204224x1.rank)
  inb_S8192_S8192_0 : ∀ a, (![0] : Fin 1 → Nat) a + S8192.size a ≤ S8192.size a
  h_S8192 : 0 < S8192.numel
  shapeCasts_S8192_S8192 : S8192.ShapeCasts S8192
  shapeCasts_S8192_S8192x1 : S8192.ShapeCasts S8192x1
  shapeCasts_S8192x1_S8192x1 : S8192x1.ShapeCasts S8192x1
  broadcasts_S8192x1_S8192x64 : S8192x1.Broadcasts S8192x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bcast_S_S250000x64 : S_.BroadcastsInDim S250000x64 (![] : Fin 0 → Fin S250000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  gather_S250000x64_S1204224x1_S1204224x64_1_0_n_n_0_1_164_wf : GatherDims.WF S250000x64 S1204224x1 S1204224x64 [1] [0] [] [0] [] 1 ![1, 64]
  scatter_S250000x64_S1204224x1_S1204224x64_1_0_0_1_wf : ScatterDims.WF S250000x64 S1204224x1 S1204224x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S1204224.size a
  hwx0_0 : ∀ i : grid0.Coords, EltTy.bits .f32 = 32 ∨ (Rect.block (s := S1204224) S8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S1204224x64.size a
  hwx0_1 : ∀ i : grid0.Coords, EltTy.bits .f32 = 32 ∨ (Rect.block (s := S1204224x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S1204224x64.size a
  hwx0_2 : ∀ i : grid0.Coords, EltTy.bits .f32 = 32 ∨ (Rect.block (s := S1204224x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S250000x64.size a
  hwx1_0 : ∀ i : grid1.Coords, EltTy.bits .f32 = 32 ∨ (Rect.block (s := S250000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S250000x64.size a
  hwx1_1 : ∀ i : grid1.Coords, EltTy.bits .f32 = 32 ∨ (Rect.block (s := S250000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S250000x64.size a
  hwx1_2 : ∀ i : grid1.Coords, EltTy.bits .f32 = 32 ∨ (Rect.block (s := S250000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192.size a ≤ S1204224.size a
  hwx2_0 : ∀ i : grid2.Coords, EltTy.bits .f32 = 32 ∨ (Rect.block (s := S1204224) S8192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S1204224x64.size a
  hwx2_1 : ∀ i : grid2.Coords, EltTy.bits .f32 = 32 ∨ (Rect.block (s := S1204224x64) S8192x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x64.size a ≤ S1204224x64.size a
  hwx2_2 : ∀ i : grid2.Coords, EltTy.bits .f32 = 32 ∨ (Rect.block (s := S1204224x64) S8192x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S250000x64.size a
  hwx3_0 : ∀ i : grid3.Coords, EltTy.bits .f32 = 32 ∨ (Rect.block (s := S250000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S250000x64.size a
  hwx3_1 : ∀ i : grid3.Coords, EltTy.bits .f32 = 32 ∨ (Rect.block (s := S250000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S250000x64.size a
  hwx3_2 : ∀ i : grid3.Coords, EltTy.bits .f32 = 32 ∨ (Rect.block (s := S250000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192.size a ≤ S1204224.size a
  hwx4_0 : ∀ i : grid4.Coords, EltTy.bits .f32 = 32 ∨ (Rect.block (s := S1204224) S8192.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x64.size a ≤ S1204224x64.size a
  hwx4_1 : ∀ i : grid4.Coords, EltTy.bits .f32 = 32 ∨ (Rect.block (s := S1204224x64) S8192x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x64.size a ≤ S1204224x64.size a
  hwx4_2 : ∀ i : grid4.Coords, EltTy.bits .f32 = 32 ∨ (Rect.block (s := S1204224x64) S8192x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S250000x64.size a
  hwx5_0 : ∀ i : grid5.Coords, EltTy.bits .f32 = 32 ∨ (Rect.block (s := S250000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S250000x64.size a
  hwx5_1 : ∀ i : grid5.Coords, EltTy.bits .f32 = 32 ∨ (Rect.block (s := S250000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S250000x64.size a
  hwx5_2 : ∀ i : grid5.Coords, EltTy.bits .f32 = 32 ∨ (Rect.block (s := S250000x64) S5000x64.size (cc5_transform_2 i) (hinb5_2 i)).WholeWords (EltTy.packing .f32)

variable [Facts₀]

def gather_S250000x64_S1204224x1_S1204224x64_1_0_n_n_0_1_164 : GatherDims S250000x64 S1204224x1 S1204224x64 where
  offsetDims := [1]
  collapsedSliceDims := [0]
  operandBatchingDims := []
  startIndicesBatchingDims := []
  startIndexMap := [0]
  indexVectorDim := 1
  sliceSizes := ![1, 64]
  wf := gather_S250000x64_S1204224x1_S1204224x64_1_0_n_n_0_1_164_wf
def scatter_S250000x64_S1204224x1_S1204224x64_1_0_0_1 : ScatterDims S250000x64 S1204224x1 S1204224x64 where
  updateWindowDims := [1]
  insertedWindowDims := [0]
  scatterDimsToOperandDims := [0]
  indexVectorDim := 1
  wf := scatter_S250000x64_S1204224x1_S1204224x64_1_0_0_1_wf

abbrev win0_0 : Pipeline.Window sig grid0 :=
  Pipeline.Window.ofSpec (Memref.whole main_v3) S8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v3) S8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S8192x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S8192x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v15) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v3) S8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S8192x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S8192x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v27) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v39) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S150000x64 : Shape := ⟨2, ![150000, 64]⟩
abbrev S1200000 : Shape := ⟨1, ![1200000]⟩
abbrev S250000x64 : Shape := ⟨2, ![250000, 64]⟩
abbrev S1200000x1 : Shape := ⟨2, ![1200000, 1]⟩
abbrev S_ : Shape := ⟨0, ![]⟩
abbrev S1200000x64 : Shape := ⟨2, ![1200000, 64]⟩

abbrev nBuf : Space → Nat
  | .hbm => 57
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S150000x64, .f32⟩
  | .hbm, ⟨2, _⟩ => ⟨S1200000, .i32⟩
  | .hbm, ⟨3, _⟩ => ⟨S1200000, .i32⟩
  | .hbm, ⟨4, _⟩ => ⟨S1200000, .f32⟩
  | .hbm, ⟨5, _⟩ => ⟨S250000x64, .f32⟩
  | .hbm, ⟨6, _⟩ => ⟨S1200000x1, .f32⟩
  | .hbm, ⟨7, _⟩ => ⟨S_, .i32⟩
  | .hbm, ⟨8, _⟩ => ⟨S1200000, .i32⟩
  | .hbm, ⟨9, _⟩ => ⟨S1200000, .i1⟩
  | .hbm, ⟨10, _⟩ => ⟨S_, .i32⟩
  | .hbm, ⟨11, _⟩ => ⟨S1200000, .i32⟩
  | .hbm, ⟨12, _⟩ => ⟨S1200000, .i32⟩
  | .hbm, ⟨13, _⟩ => ⟨S1200000, .i32⟩
  | .hbm, ⟨14, _⟩ => ⟨S1200000x1, .i32⟩
  | .hbm, ⟨15, _⟩ => ⟨S1200000x64, .f32⟩
  | .hbm, ⟨16, _⟩ => ⟨S1200000x64, .f32⟩
  | .hbm, ⟨17, _⟩ => ⟨S1200000x64, .f32⟩
  | .hbm, ⟨18, _⟩ => ⟨S_, .f32⟩
  | .hbm, ⟨19, _⟩ => ⟨S250000x64, .f32⟩
  | .hbm, ⟨20, _⟩ => ⟨S1200000x1, .i32⟩
  | .hbm, ⟨21, _⟩ => ⟨S250000x64, .f32⟩
  | .hbm, ⟨22, _⟩ => ⟨S250000x64, .f32⟩
  | .hbm, ⟨23, _⟩ => ⟨S1200000x1, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000x64, .f32⟩
  | .hbm, ⟨33, _⟩ => ⟨S1200000x64, .f32⟩
  | .hbm, ⟨34, _⟩ => ⟨S1200000x64, .f32⟩
  | .hbm, ⟨35, _⟩ => ⟨S_, .f32⟩
  | .hbm, ⟨36, _⟩ => ⟨S250000x64, .f32⟩
  | .hbm, ⟨37, _⟩ => ⟨S1200000x1, .i32⟩
  | .hbm, ⟨38, _⟩ => ⟨S250000x64, .f32⟩
  | .hbm, ⟨39, _⟩ => ⟨S250000x64, .f32⟩
  | .hbm, ⟨40, _⟩ => ⟨S1200000x1, .f32⟩
  | .hbm, ⟨41, _⟩ => ⟨S_, .i32⟩
  | .hbm, ⟨42, _⟩ => ⟨S1200000, .i32⟩
  | .hbm, ⟨43, _⟩ => ⟨S1200000, .i1⟩
  | .hbm, ⟨44, _⟩ => ⟨S_, .i32⟩
  | .hbm, ⟨45, _⟩ => ⟨S1200000, .i32⟩
  | .hbm, ⟨46, _⟩ => ⟨S1200000, .i32⟩
  | .hbm, ⟨47, _⟩ => ⟨S1200000, .i32⟩
  | .hbm, ⟨48, _⟩ => ⟨S1200000x1, .i32⟩
  | .hbm, ⟨49, _⟩ => ⟨S1200000x64, .f32⟩
  | .hbm, ⟨50, _⟩ => ⟨S1200000x64, .f32⟩
  | .hbm, ⟨51, _⟩ => ⟨S1200000x64, .f32⟩
  | .hbm, ⟨52, _⟩ => ⟨S_, .f32⟩
  | .hbm, ⟨53, _⟩ => ⟨S250000x64, .f32⟩
  | .hbm, ⟨54, _⟩ => ⟨S1200000x1, .i32⟩
  | .hbm, ⟨55, _⟩ => ⟨S250000x64, .f32⟩
  | .hbm, ⟨56, _⟩ => ⟨S250000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]

class Facts₀ : Prop where
  concatenates_S100000x64_S150000x64_S250000x64_d0 : Shape.Concatenates [S100000x64, S150000x64] S250000x64 0
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S250000x64 : S_.BroadcastsInDim S250000x64 (![] : Fin 0 → Fin S250000x64.rank)
  gather_S250000x64_S1200000x1_S1200000x64_1_0_n_n_0_1_164_wf : GatherDims.WF S250000x64 S1200000x1 S1200000x64 [1] [0] [] [0] [] 1 ![1, 64]
  scatter_S250000x64_S1200000x1_S1200000x64_1_0_0_1_wf : ScatterDims.WF S250000x64 S1200000x1 S1200000x64 [1] [0] [0] 1

variable [Facts₀]

def gather_S250000x64_S1200000x1_S1200000x64_1_0_n_n_0_1_164 : GatherDims S250000x64 S1200000x1 S1200000x64 where
  offsetDims := [1]
  collapsedSliceDims := [0]
  operandBatchingDims := []
  startIndicesBatchingDims := []
  startIndexMap := [0]
  indexVectorDim := 1
  sliceSizes := ![1, 64]
  wf := gather_S250000x64_S1200000x1_S1200000x64_1_0_n_n_0_1_164_wf
def scatter_S250000x64_S1200000x1_S1200000x64_1_0_0_1 : ScatterDims S250000x64 S1200000x1 S1200000x64 where
  updateWindowDims := [1]
  insertedWindowDims := [0]
  scatterDimsToOperandDims := [0]
  indexVectorDim := 1
  wf := scatter_S250000x64_S1200000x1_S1200000x64_1_0_0_1_wf

class Facts : Prop extends Facts₀ where

variable [Facts]
-- ==== Proof.Spec.lean ====
/-
  Three hops of a sparse matrix product over a graph, as whole-array functions of the five inputs.

  The node table is the user rows on top of the item rows: 250000 rows of width 64. One hop takes a node table
  `cur` to the table whose row n is the sum, over the edges e whose destination number is n, of
  vals e · cur (source row of e), where the source number is first wrapped (a negative number has 250000 added)
  and then clamped into the table, and an edge whose destination number is not a row is dropped. The result is
  table + hop + hop² + hop³, added in that order.

  Two spellings of one hop are stated. `layerR` runs over the 1200000 edges as given. `layerK` runs over
  1204224 edges: the three edge arrays are extended by 4224 entries holding destination 0, source 0 and value 0,
  and the product of a value with a gathered row is taken as one function of the whole arrays (`scaleRows`).
  The added edges each contribute 0 · (row 0 of the table) = 0 to row 0, so the two hops are one function; that is
  proved in another module.
-/
import proofs.«105449_j51419348468395_1_alg».proof.KernelIdeal
import proofs.«105449_j51419348468395_1_alg».proof.ReferenceIdeal

noncomputable section

namespace Cert.Spec

open Idealize.ShloMosaic

variable {F : FTy → Type} [FloatOps F]
variable [hK : Cert.KernelIdeal.Facts₀] [hR : Cert.ReferenceIdeal.Facts₀]

/-- The node table: the user rows followed by the item rows. -/
def table (x0 : FVec F Cert.ReferenceIdeal.S100000x64 .f32) (x1 : FVec F Cert.ReferenceIdeal.S150000x64 .f32) :
    FVec F Cert.ReferenceIdeal.S250000x64 .f32 :=
  concatenate Cert.ReferenceIdeal.S250000x64 0 [⟨Cert.ReferenceIdeal.S100000x64, x0⟩, ⟨Cert.ReferenceIdeal.S150000x64, x1⟩]
    Cert.ReferenceIdeal.Facts₀.concatenates_S100000x64_S150000x64_S250000x64_d0

/-! ## One hop over the 1200000 edges as given -/

/-- A source number wrapped: a negative one has 250000 added. -/
def wrapR (x3 : IVec Cert.ReferenceIdeal.S1200000 32) : IVec Cert.ReferenceIdeal.S1200000 32 :=
  select (cmpi .slt x3 (broadcastInDim Cert.ReferenceIdeal.S1200000 ![] Cert.ReferenceIdeal.Facts₀.bcast_S_S1200000 (constantI Cert.ReferenceIdeal.S_ 32 0#32)))
    (addi x3 (broadcastInDim Cert.ReferenceIdeal.S1200000 ![] Cert.ReferenceIdeal.Facts₀.bcast_S_S1200000 (constantI Cert.ReferenceIdeal.S_ 32 250000#32))) x3

/-- The messages: edge e's value times the table's row at e's source. -/
def msgsR (x3 : IVec Cert.ReferenceIdeal.S1200000 32) (x4 : FVec F Cert.ReferenceIdeal.S1200000 .f32)
    (cur : FVec F Cert.ReferenceIdeal.S250000x64 .f32) : FVec F Cert.ReferenceIdeal.S1200000x64 .f32 :=
  mulf (broadcastInDim Cert.ReferenceIdeal.S1200000x64 ![0, 1] Cert.ReferenceIdeal.Facts₀.bcast_S1200000x1_S1200000x64_0_1
      (broadcastInDim Cert.ReferenceIdeal.S1200000x1 ![0] Cert.ReferenceIdeal.Facts₀.bcast_S1200000_S1200000x1_0 x4))
    (Host.gather Cert.ReferenceIdeal.gather_S250000x64_S1200000x1_S1200000x64_1_0_n_n_0_1_164 cur
      (broadcastInDim Cert.ReferenceIdeal.S1200000x1 ![0] Cert.ReferenceIdeal.Facts₀.bcast_S1200000_S1200000x1_0 (wrapR x3)))

/-- One hop: the messages summed into their destination rows, from a table of zeros. -/
def layerR (x2 x3 : IVec Cert.ReferenceIdeal.S1200000 32) (x4 : FVec F Cert.ReferenceIdeal.S1200000 .f32)
    (cur : FVec F Cert.ReferenceIdeal.S250000x64 .f32) : FVec F Cert.ReferenceIdeal.S250000x64 .f32 :=
  Host.scatterAdd Cert.ReferenceIdeal.scatter_S250000x64_S1200000x1_S1200000x64_1_0_0_1
    (broadcastInDim Cert.ReferenceIdeal.S250000x64 ![] Cert.ReferenceIdeal.Facts₀.bcast_S_S250000x64 (constant Cert.ReferenceIdeal.S_ .f32 0x00000000#32))
    (broadcastInDim Cert.ReferenceIdeal.S1200000x1 ![0] Cert.ReferenceIdeal.Facts₀.bcast_S1200000_S1200000x1_0 x2)
    (msgsR x3 x4 cur)

/-- The table plus its first three hops. -/
def resultR (x0 : FVec F Cert.ReferenceIdeal.S100000x64 .f32) (x1 : FVec F Cert.ReferenceIdeal.S150000x64 .f32)
    (x2 x3 : IVec Cert.ReferenceIdeal.S1200000 32) (x4 : FVec F Cert.ReferenceIdeal.S1200000 .f32) :
    FVec F Cert.ReferenceIdeal.S250000x64 .f32 :=
  addf (addf (addf (table x0 x1) (layerR x2 x3 x4 (table x0 x1))) (layerR x2 x3 x4 (layerR x2 x3 x4 (table x0 x1))))
    (layerR x2 x3 x4 (layerR x2 x3 x4 (layerR x2 x3 x4 (table x0 x1))))

/-! ## One hop over the edge arrays extended to 1204224 entries -/

/-- An integer edge array extended by 4224 zeros. -/
def padI (x : IVec Cert.KernelIdeal.S1200000 32) : IVec Cert.KernelIdeal.S1204224 32 :=
  pad Cert.KernelIdeal.S1204224 ![0] ![4224] ![0] x (id (constantI Cert.KernelIdeal.S_ 32 0#32))
    Cert.KernelIdeal.Facts₀.pads_S1200000_S1204224_042240 Cert.KernelIdeal.Facts₀.h_S_

/-- The value array extended by 4224 entries holding the integer 0 converted to a float. -/
def padF (x : FVec F Cert.KernelIdeal.S1200000 .f32) : FVec F Cert.KernelIdeal.S1204224 .f32 :=
  pad Cert.KernelIdeal.S1204224 ![0] ![4224] ![0] x (sitofp .f32 (constantI Cert.KernelIdeal.S_ 32 0#32))
    Cert.KernelIdeal.Facts₀.pads_S1200000_S1204224_042240 Cert.KernelIdeal.Facts₀.h_S_

/-- A source number wrapped, over the extended array. -/
def wrapK (y3 : IVec Cert.KernelIdeal.S1204224 32) : IVec Cert.KernelIdeal.S1204224 32 :=
  select (cmpi .slt y3 (broadcastInDim Cert.KernelIdeal.S1204224 ![] Cert.KernelIdeal.Facts₀.bcast_S_S1204224 (constantI Cert.KernelIdeal.S_ 32 0#32)))
    (addi y3 (broadcastInDim Cert.KernelIdeal.S1204224 ![] Cert.KernelIdeal.Facts₀.bcast_S_S1204224 (constantI Cert.KernelIdeal.S_ 32 250000#32))) y3

/-- The rows gathered at the edges' sources. -/
def rowsK (y3 : IVec Cert.KernelIdeal.S1204224 32) (cur : FVec F Cert.KernelIdeal.S250000x64 .f32) :
    FVec F Cert.KernelIdeal.S1204224x64 .f32 :=
  Host.gather Cert.KernelIdeal.gather_S250000x64_S1204224x1_S1204224x64_1_0_n_n_0_1_164 cur
    (broadcastInDim Cert.KernelIdeal.S1204224x1 ![0] Cert.KernelIdeal.Facts₀.bcast_S1204224_S1204224x1_0 (wrapK y3))

/-- Row e of a 1204224 × 64 matrix scaled by entry e of a vector: entry (e, k) is v e · g (e, k). -/
def scaleRows (v : FVec F Cert.KernelIdeal.S1204224 .f32) (g : FVec F Cert.KernelIdeal.S1204224x64 .f32) :
    FVec F Cert.KernelIdeal.S1204224x64 .f32 :=
  fun i => FloatOps.mulf (v (fun a => match a with | ⟨0, _⟩ => ⟨(i 0).val, (i 0).isLt⟩)) (g i)

/-- The messages summed into their destination rows, from a table of zeros. -/
def sumRowsK (y2 : IVec Cert.KernelIdeal.S1204224 32) (u : FVec F Cert.KernelIdeal.S1204224x64 .f32) :
    FVec F Cert.KernelIdeal.S250000x64 .f32 :=
  Host.scatterAdd Cert.KernelIdeal.scatter_S250000x64_S1204224x1_S1204224x64_1_0_0_1
    (broadcastInDim Cert.KernelIdeal.S250000x64 ![] Cert.KernelIdeal.Facts₀.bcast_S_S250000x64 (constant Cert.KernelIdeal.S_ .f32 0x00000000#32))
    (broadcastInDim Cert.KernelIdeal.S1204224x1 ![0] Cert.KernelIdeal.Facts₀.bcast_S1204224_S1204224x1_0 y2) u

/-- One hop over the extended edge arrays. -/
def layerK (x2 x3 : IVec Cert.KernelIdeal.S1200000 32) (x4 : FVec F Cert.KernelIdeal.S1200000 .f32)
    (cur : FVec F Cert.KernelIdeal.S250000x64 .f32) : FVec F Cert.KernelIdeal.S250000x64 .f32 :=
  sumRowsK (padI x2) (scaleRows (padF x4) (rowsK (padI x3) cur))

/-- The table plus its first three hops, over the extended edge arrays. -/
def resultK (x0 : FVec F Cert.KernelIdeal.S100000x64 .f32) (x1 : FVec F Cert.KernelIdeal.S150000x64 .f32)
    (x2 x3 : IVec Cert.KernelIdeal.S1200000 32) (x4 : FVec F Cert.KernelIdeal.S1200000 .f32) :
    FVec F Cert.KernelIdeal.S250000x64 .f32 :=
  addf (addf (addf (table x0 x1) (layerK x2 x3 x4 (table x0 x1))) (layerK x2 x3 x4 (layerK x2 x3 x4 (table x0 x1))))
    (layerK x2 x3 x4 (layerK x2 x3 x4 (layerK x2 x3 x4 (table x0 x1))))

end Cert.Spec

end
-- ==== Proof.LibScatterRows.lean ====
/-
  An accumulating scatter of the rows of an E × K matrix of updates into the rows of an N × K matrix, by an E × 1
  column of signed row numbers, read at an entry, over the extended reals. The node count N, the edge count E and
  the width K are arbitrary. The dimension record is
    update window axes [1], inserted window axes [0], scatter-to-operand map [0], index-vector axis 1.

  Where an update lands. The start of the window on operand axis 0 is the row number at `(e, 0)`, read signed and
  not clamped; on axis 1 it is 0. The window coordinate is 0 on axis 0 and the update's column on axis 1. Hence
  update `(e, k)` lands iff that row number lies in [0, N), and then at (that row, column `k`).

  The sum. Edge e goes to the row whose number the index column holds at e and is dropped when that number is not
  a row. So row n receives exactly the edges of `inEdges idx n`, and entry (n, j) of the result is the operand's
  entry plus the sum over those edges of the updates' column j.
-/
import Idealize.ShloMosaic.PureOps.Dims
import Idealize.ShloMosaic.PureOps.Ideal
import Idealize.ShloMosaic.Lib.ValueIdx

noncomputable section

namespace Cert.LibScatterRows
open Idealize.ShloMosaic
open Idealize.ShloMosaic.ValueIdx

variable {N E K : Nat}

/-- The operand: N rows of width K. -/
abbrev SN (N K : Nat) : Shape := ⟨2, ![N, K]⟩
/-- The column of E row numbers. -/
abbrev SI (E : Nat) : Shape := ⟨2, ![E, 1]⟩
/-- The updates: E rows of width K. -/
abbrev SU (E K : Nat) : Shape := ⟨2, ![E, K]⟩

/-- The record, over any proof of its well-formedness. -/
abbrev D2 (wf : ScatterDims.WF (SN N K) (SI E) (SU E K) [1] [0] [0] 1) : ScatterDims (SN N K) (SI E) (SU E K) :=
  ⟨[1], [0], [0], 1, wf⟩

/-! ## Where an update lands -/

/-- The scatter-indices index read for an update index `(e, k)`: row `e`, the one column. -/
theorem siIdx2 (wf : ScatterDims.WF (SN N K) (SI E) (SU E K) [1] [0] [0] 1) (e : Fin E) (k : Fin K) (c) :
    (D2 wf).siIdx (ix2 e k) c = ix2 e (0 : Fin 1) := by
  funext b
  match b with
  | ⟨0, _⟩ => exact Fin.ext rfl
  | ⟨1, _⟩ => exact Fin.ext (by simp [ScatterDims.siIdx])

/-- On operand axis 0 the window starts at the row number read signed at `(e, 0)`. -/
theorem start2_0 (wf : ScatterDims.WF (SN N K) (SI E) (SU E K) [1] [0] [0] 1) {w : Nat} (idx : IVec (SI E) w)
    (e : Fin E) (k : Fin K) :
    (D2 wf).start (ix2 e k) idx 0 = (idx (ix2 e (0 : Fin 1))).toInt := by
  unfold ScatterDims.start
  simp [siIdx2]

/-- Operand axis 1 is not in the scatter-to-operand map: the window starts at 0 there. -/
theorem start2_1 (wf : ScatterDims.WF (SN N K) (SI E) (SU E K) [1] [0] [0] 1) {w : Nat} (idx : IVec (SI E) w) (j) :
    (D2 wf).start j idx 1 = 0 := by
  unfold ScatterDims.start
  simp

/-- Operand axis 0 is an inserted window axis: the window coordinate is 0 there. -/
theorem window2_0 (wf : ScatterDims.WF (SN N K) (SI E) (SU E K) [1] [0] [0] 1) (j) :
    (D2 wf).window j 0 = 0 := by
  unfold ScatterDims.window
  simp [Shape.kept]

/-- Operand axis 1 is the only kept axis and takes the update's window axis 1. -/
theorem window2_1 (wf : ScatterDims.WF (SN N K) (SI E) (SU E K) [1] [0] [0] 1) (j) :
    (D2 wf).window j 1 = (j 1).val := rfl

/-- Update `(e, k)` lands on `(n, j)` iff the row number at `(e, 0)` is `n` and the columns agree. -/
theorem land2 (wf : ScatterDims.WF (SN N K) (SI E) (SU E K) [1] [0] [0] 1) {w : Nat} (idx : IVec (SI E) w)
    (e : Fin E) (k : Fin K) (n : Fin N) (j : Fin K) :
    (D2 wf).resultIdx? (ix2 e k) idx = some (ix2 n j) ↔
      (idx (ix2 e (0 : Fin 1))).toInt = (n.val : Int) ∧ k = j := by
  have hk := k.isLt
  have hj := j.isLt
  have hn := n.isLt
  unfold ScatterDims.resultIdx?
  split
  · rename_i h
    have h0 := h 0
    simp only [start2_0, window2_0] at h0
    change 0 ≤ (idx (ix2 e (0 : Fin 1))).toInt + ((0 : Nat) : Int) ∧
      (idx (ix2 e (0 : Fin 1))).toInt + ((0 : Nat) : Int) < ((N : Nat) : Int) at h0
    rw [Option.some.injEq, funext_iff, Fin.forall_fin_two]
    simp only [Fin.ext_iff, start2_0, start2_1, window2_0, window2_1]
    change ((idx (ix2 e (0 : Fin 1))).toInt + ((0 : Nat) : Int)).toNat = n.val ∧
      ((0 : Int) + ((k.val : Nat) : Int)).toNat = j.val ↔ _
    omega
  · rename_i h
    simp only [Fin.forall_fin_two, start2_0, start2_1, window2_0, window2_1] at h
    change ¬((0 ≤ (idx (ix2 e (0 : Fin 1))).toInt + ((0 : Nat) : Int) ∧
      (idx (ix2 e (0 : Fin 1))).toInt + ((0 : Nat) : Int) < ((N : Nat) : Int)) ∧
      0 ≤ (0 : Int) + ((k.val : Nat) : Int) ∧ (0 : Int) + ((k.val : Nat) : Int) < ((K : Nat) : Int)) at h
    constructor
    · intro hc; exact absurd hc (by simp)
    · rintro ⟨h1, _⟩; exact absurd (by omega) h

/-- The same for any record with these four fields. -/
theorem land2_of_eq (d : ScatterDims (SN N K) (SI E) (SU E K)) (h1 : d.updateWindowDims = [1])
    (h2 : d.insertedWindowDims = [0]) (h3 : d.scatterDimsToOperandDims = [0]) (h4 : d.indexVectorDim = 1)
    {w : Nat} (idx : IVec (SI E) w) (e : Fin E) (k : Fin K) (n : Fin N) (j : Fin K) :
    d.resultIdx? (ix2 e k) idx = some (ix2 n j) ↔
      (idx (ix2 e (0 : Fin 1))).toInt = (n.val : Int) ∧ k = j := by
  obtain ⟨uw, iw, sd, iv, wf⟩ := d
  simp only at h1 h2 h3 h4
  subst h1 h2 h3 h4
  exact land2 wf idx e k n j

/-! ## The sum -/

/-- The edges whose destination is node n: the index column, read signed at the edge, is n. -/
def inEdges {w : Nat} (idx : IVec (SI E) w) (n : Fin N) : Finset (Fin E) :=
  Finset.univ.filter fun e => (idx (ix2 e (0 : Fin 1))).toInt = (n.val : Int)

/-- The accumulating scatter at an operand index: the operand there plus the updates that land there. -/
theorem scatterAdd_eq {s si su : Shape} (d : ScatterDims s si su) {w : Nat} (x : s.Idx → EReal) (idx : IVec si w)
    (upd : su.Idx → EReal) (i : s.Idx) :
    Ideal.hostScatterAdd d x idx upd i =
      x i + ∑ u ∈ Finset.univ.filter (fun u : su.Idx => d.resultIdx? u idx = some i), upd u := rfl

/-- The host's accumulating scatter, read over the extended reals, is that sum. -/
theorem host_eq {s si su : Shape} {φ : FTy} (d : ScatterDims s si su) {w : Nat} (x : FVec Ideal s φ) (idx : IVec si w)
    (upd : FVec Ideal su φ) : Host.scatterAdd (F := Ideal) d x idx upd = Ideal.hostScatterAdd d x idx upd := rfl

/-- Summing over the edges sent to n is summing over all edges with the others zeroed. -/
theorem sum_inEdges {w : Nat} (idx : IVec (SI E) w) (n : Fin N) (f : Fin E → EReal) :
    ∑ e ∈ inEdges idx n, f e = ∑ e : Fin E, if (idx (ix2 e (0 : Fin 1))).toInt = (n.val : Int) then f e else 0 := by
  unfold inEdges
  rw [Finset.sum_filter]

/-- Rows of a matrix scattered and added: entry (n, j) gains column j of every update row sent to n. -/
theorem scatterAdd2_apply (d : ScatterDims (SN N K) (SI E) (SU E K)) (h1 : d.updateWindowDims = [1])
    (h2 : d.insertedWindowDims = [0]) (h3 : d.scatterDimsToOperandDims = [0]) (h4 : d.indexVectorDim = 1) {w : Nat}
    (x : (SN N K).Idx → EReal) (idx : IVec (SI E) w) (upd : (SU E K).Idx → EReal) (n : Fin N) (j : Fin K) :
    Ideal.hostScatterAdd d x idx upd (ix2 n j) = x (ix2 n j) + ∑ e ∈ inEdges idx n, upd (ix2 e j) := by
  rw [scatterAdd_eq, sum_inEdges]
  refine congrArg (x (ix2 n j) + ·) ?_
  rw [Finset.sum_filter, sum_idx2]
  refine Finset.sum_congr rfl fun e _ => ?_
  simp only [land2_of_eq d h1 h2 h3 h4]
  by_cases he : (idx (ix2 e (0 : Fin 1))).toInt = (n.val : Int)
  · simp only [he, true_and, if_true]
    rw [Finset.sum_ite_eq' Finset.univ j]
    simp
  · simp only [he, false_and, if_false, Finset.sum_const_zero]

end Cert.LibScatterRows

end
-- ==== Proof.LibGatherRows.lean ====
/-
  A row gather read at an index: rows of an N × K matrix picked by an E × 1 column of row numbers, giving an
  E × K matrix. The node count N (positive), the edge count E and the width K are arbitrary. The dimension record is
    offset axes [1], collapsed slice axes [0], start index map [0], index-vector axis 1, slice sizes (1, K),
  with no batching axes.

  On operand axis 0 the slice starts at the row number at (e, 0), read as a signed integer and clamped into
  [0, N − 1]; the axis is collapsed, so nothing is added to it. On operand axis 1 the slice starts at 0 and the
  offset is the result's column. Hence result element (e, k) is the operand's at (clamped row number, k).
-/
import Idealize.ShloMosaic.PureOps.Dims
import Idealize.ShloMosaic.PureOps.Ideal
import Idealize.ShloMosaic.Lib.ValueIdx

namespace Cert.LibGatherRows
open Idealize.ShloMosaic
open Idealize.ShloMosaic.ValueIdx

variable {N E K : Nat}

/-- The operand: N rows of width K. -/
abbrev SN (N K : Nat) : Shape := ⟨2, ![N, K]⟩
/-- The column of E row numbers. -/
abbrev SI (E : Nat) : Shape := ⟨2, ![E, 1]⟩
/-- The result: E rows of width K. -/
abbrev SU (E K : Nat) : Shape := ⟨2, ![E, K]⟩

/-- The row an index word selects: read signed, clamped into [0, N − 1]. -/
def rowOf [NeZero N] {w : Nat} (v : BitVec w) : Fin N :=
  ⟨min v.toInt.toNat (N - 1), by have := NeZero.pos N; omega⟩

theorem rowOf_val [NeZero N] {w : Nat} (v : BitVec w) : (rowOf (N := N) v).val = min v.toInt.toNat (N - 1) := rfl

/-- A word whose signed value is a row number selects that row. -/
theorem rowOf_of_toInt [NeZero N] {w : Nat} (v : BitVec w) (n : Fin N) (h : v.toInt = (n.val : Int)) :
    rowOf v = n := by
  have hn := n.isLt
  refine Fin.ext ?_
  rw [rowOf_val, h]
  omega

/-- The record, over any proof of its well-formedness. -/
abbrev G2 (wf : GatherDims.WF (SN N K) (SI E) (SU E K) [1] [0] [] [0] [] 1 ![1, K]) :
    GatherDims (SN N K) (SI E) (SU E K) :=
  ⟨[1], [0], [], [], [0], 1, ![1, K], wf⟩

/-- The start-indices index read for result index (e, k): row e, the one column. -/
theorem siIdx2 (wf : GatherDims.WF (SN N K) (SI E) (SU E K) [1] [0] [] [0] [] 1 ![1, K]) (e : Fin E) (k : Fin K) (c) :
    (G2 wf).siIdx (ix2 e k) c = ix2 e (0 : Fin 1) := by
  funext b
  match b with
  | ⟨0, _⟩ => exact Fin.ext rfl
  | ⟨1, _⟩ => exact Fin.ext (by simp [GatherDims.siIdx])

/-- On operand axis 0 the slice starts at the clamped row number. -/
theorem start2_0 [NeZero N] (wf : GatherDims.WF (SN N K) (SI E) (SU E K) [1] [0] [] [0] [] 1 ![1, K]) {w : Nat}
    (idx : IVec (SI E) w) (e : Fin E) (k : Fin K) :
    (G2 wf).start (ix2 e k) idx 0 = (rowOf (N := N) (idx (ix2 e (0 : Fin 1)))).val := by
  unfold GatherDims.start
  rw [dif_pos (show (0 : Fin 2) ∈ (G2 wf).startIndexMap from List.mem_singleton.mpr rfl), siIdx2]
  rfl

/-- Operand axis 1 is not in the start index map: the slice starts at 0 there. -/
theorem start2_1 (wf : GatherDims.WF (SN N K) (SI E) (SU E K) [1] [0] [] [0] [] 1 ![1, K]) {w : Nat}
    (idx : IVec (SI E) w) (j) :
    (G2 wf).start j idx 1 = 0 := by
  unfold GatherDims.start
  simp

/-- Operand axis 0 is collapsed: no offset there. -/
theorem offCoord2_0 (wf : GatherDims.WF (SN N K) (SI E) (SU E K) [1] [0] [] [0] [] 1 ![1, K]) (j) :
    (G2 wf).offCoord j 0 = 0 :=
  GatherDims.offCoord_eq_zero _ _ _ (fun h => ((GatherDims.mem_sKept _ _).mp h).1 (List.mem_singleton.mpr rfl))

/-- Operand axis 1 is the only kept axis and takes the result's offset axis 1. -/
theorem offCoord2_1 (wf : GatherDims.WF (SN N K) (SI E) (SU E K) [1] [0] [] [0] [] 1 ![1, K]) (j) :
    (G2 wf).offCoord j 1 = (j 1).val := rfl

/-- Result element (e, k) is the operand's at (clamped row number at (e, 0), k). -/
theorem gather2 [NeZero N] {α : Type} (wf : GatherDims.WF (SN N K) (SI E) (SU E K) [1] [0] [] [0] [] 1 ![1, K])
    {w : Nat} (x : (SN N K).Idx → α) (idx : IVec (SI E) w) (e : Fin E) (k : Fin K) :
    Host.gather (G2 wf) x idx (ix2 e k) = x (ix2 (rowOf (idx (ix2 e (0 : Fin 1)))) k) := by
  unfold Host.gather
  congr 1
  funext a
  refine Fin.ext ?_
  match a with
  | ⟨0, _⟩ =>
    show (G2 wf).start (ix2 e k) idx 0 + (G2 wf).batchCoord (ix2 e k) 0 + (G2 wf).offCoord (ix2 e k) 0 = _
    rw [GatherDims.batchCoord_eq_zero _ _ _ List.not_mem_nil, offCoord2_0, start2_0]
    rfl
  | ⟨1, _⟩ =>
    show (G2 wf).start (ix2 e k) idx 1 + (G2 wf).batchCoord (ix2 e k) 1 + (G2 wf).offCoord (ix2 e k) 1 = _
    rw [GatherDims.batchCoord_eq_zero _ _ _ List.not_mem_nil, offCoord2_1, start2_1]
    simp
    rfl

/-- The same for any record with these seven fields. -/
theorem gather2_apply [NeZero N] {α : Type} (d : GatherDims (SN N K) (SI E) (SU E K)) (h1 : d.offsetDims = [1])
    (h2 : d.collapsedSliceDims = [0]) (h3 : d.operandBatchingDims = []) (h4 : d.startIndicesBatchingDims = [])
    (h5 : d.startIndexMap = [0]) (h6 : d.indexVectorDim = 1) (h7 : d.sliceSizes = ![1, K])
    {w : Nat} (x : (SN N K).Idx → α) (idx : IVec (SI E) w) (e : Fin E) (k : Fin K) :
    Host.gather d x idx (ix2 e k) = x (ix2 (rowOf (idx (ix2 e (0 : Fin 1)))) k) := by
  obtain ⟨od, cd, ob, sb, sm, iv, ss, wf⟩ := d
  simp only at h1 h2 h3 h4 h5 h6 h7
  subst h1 h2 h3 h4 h5 h6 h7
  exact gather2 wf x idx e k

end Cert.LibGatherRows
-- ==== Proof.LayerEq.lean ====
/-
  The two spellings of one hop of the sparse matrix product are one function.

  At entry (n, j) both are the zero constant plus a sum over edges: the edges e whose destination number, read
  signed, is n each contribute (value of e) · cur (clamped wrapped source number of e, j). The first spelling sums
  over the 1200000 edges as given; the second over 1204224 edges, the three edge arrays having been extended by
  4224 entries. Read below 1200000 an extended array is the given one, so the first 1200000 terms agree one by one.
  Each of the last 4224 terms has the value "the integer 0 converted to a float", which is 0, and 0 · x = 0 for
  every extended real x; so each of them is 0 whatever its destination number says. Splitting the sum over
  1204224 = 1200000 + 4224 edges into its two blocks gives the equality. No entry needs to be finite.
-/
import proofs.«105449_j51419348468395_1_alg».proof.Proof.Spec
import proofs.«105449_j51419348468395_1_alg».proof.Proof.LibScatterRows
import proofs.«105449_j51419348468395_1_alg».proof.Proof.LibGatherRows
import Idealize.ShloMosaic.Lib.KernelVsHost
import Idealize.ShloMosaic.Lib.Pipeline.Value
import Idealize.ShloMosaic.Lib.ValueIdx

noncomputable section

namespace Cert.LayerEq

open Idealize.ShloMosaic Idealize.ShloMosaic.ValueIdx

/-! ## Layout facts, for any number of edges -/

section Layout
variable {α : Type} {E L P K : Nat}

/-- A vector of length E viewed as an E × 1 column reads, at (e, 0), the vector's entry e. -/
theorem column_apply (h : (⟨1, ![E]⟩ : Shape).BroadcastsInDim ⟨2, ![E, 1]⟩ ![0])
    (x : (⟨1, ![E]⟩ : Shape).Idx → α) (e : Fin E) :
    broadcastInDim ⟨2, ![E, 1]⟩ ![0] h x (ix2 e (0 : Fin 1)) = x (ix1 e) :=
  broadcastInDim_apply _ h x _ (ix1 e) fun a => match a with
    | ⟨0, _⟩ => by
      show e.val = if E = 1 then 0 else e.val
      split
      · have := e.isLt; omega
      · rfl

/-- An E × 1 column repeated along the rows of an E × K matrix reads, at (e, k), the column's entry at row e. -/
theorem alongRows_apply (h : (⟨2, ![E, 1]⟩ : Shape).BroadcastsInDim ⟨2, ![E, K]⟩ ![0, 1])
    (y : (⟨2, ![E, 1]⟩ : Shape).Idx → α) (e : Fin E) (k : Fin K) :
    broadcastInDim ⟨2, ![E, K]⟩ ![0, 1] h y (ix2 e k) = y (ix2 e (0 : Fin 1)) :=
  broadcastInDim_apply _ h y _ (ix2 e (0 : Fin 1)) fun a => match a with
    | ⟨0, _⟩ => by
      show e.val = if E = 1 then 0 else e.val
      split
      · have := e.isLt; omega
      · rfl
    | ⟨1, _⟩ => by
      show 0 = if (1 : Nat) = 1 then 0 else k.val
      rw [if_pos rfl]

/-- A vector of length E extended at its end to length L, read at an entry below E, is the vector there. -/
theorem extend_inside (h : (⟨1, ![E]⟩ : Shape).Pads ![0] ![P] ![0] ⟨1, ![L]⟩) (x : (⟨1, ![E]⟩ : Shape).Idx → α)
    {u : Shape} (v : u.Idx → α) (hu : 0 < u.numel) (e' : Fin L) (e : Fin E) (he : e'.val = e.val) :
    pad ⟨1, ![L]⟩ ![0] ![P] ![0] x v h hu (ix1 e') = x (ix1 e) :=
  pad_apply_of_inside _ _ _ x v h hu (ix1 e') (ix1 e) fun a => match a with
    | ⟨0, _⟩ => by
      show e'.val = 0 + e.val * (0 + 1)
      omega

/-- A vector of length E extended at its end to length L, read at an entry from E on, is the filling value. -/
theorem extend_outside (h : (⟨1, ![E]⟩ : Shape).Pads ![0] ![P] ![0] ⟨1, ![L]⟩) (x : (⟨1, ![E]⟩ : Shape).Idx → α)
    {u : Shape} (v : u.Idx → α) (hu : 0 < u.numel) (e' : Fin L) (he : E ≤ e'.val) :
    pad ⟨1, ![L]⟩ ![0] ![P] ![0] x v h hu (ix1 e') = v (Shape.Idx.first hu) :=
  pad_apply_of_not_inside _ _ _ x v h hu (ix1 e') 0 (by
    show ¬(0 ≤ e'.val ∧ (e'.val - 0) % (0 + 1) = 0 ∧ (e'.val - 0) / (0 + 1) < E)
    omega)

/-- A sum over E + P terms whose last P terms are zero is the sum of its first E terms. -/
theorem sum_extend {M : Type} [AddCommMonoid M] (g : Fin (E + P) → M) (f : Fin E → M)
    (h1 : ∀ e : Fin E, g (Fin.castAdd P e) = f e) (h2 : ∀ p : Fin P, g (Fin.natAdd E p) = 0) :
    ∑ i, g i = ∑ e, f e := by
  rw [Fin.sum_univ_add]
  simp only [h1, h2, Finset.sum_const_zero, add_zero]

end Layout

/-! ## A scatter by a column and a gather by a column, for any number of edges -/

section Columns
variable {E : Nat}

instance : NeZero (250000 : Nat) := ⟨by omega⟩

/-- Rows scattered and added by a column of row numbers: entry (n, j) is the operand's plus, over the edges whose
    number read signed is n, column j of the edge's update row. -/
theorem scatter_column_apply (d : ScatterDims ⟨2, ![250000, 64]⟩ ⟨2, ![E, 1]⟩ ⟨2, ![E, 64]⟩)
    (h1 : d.updateWindowDims = [1]) (h2 : d.insertedWindowDims = [0]) (h3 : d.scatterDimsToOperandDims = [0])
    (h4 : d.indexVectorDim = 1) (hc : (⟨1, ![E]⟩ : Shape).BroadcastsInDim ⟨2, ![E, 1]⟩ ![0])
    (z : FVec Ideal ⟨2, ![250000, 64]⟩ .f32) (y : IVec ⟨1, ![E]⟩ 32) (U : FVec Ideal ⟨2, ![E, 64]⟩ .f32)
    (n : Fin 250000) (j : Fin 64) :
    Host.scatterAdd (F := Ideal) d z (broadcastInDim ⟨2, ![E, 1]⟩ ![0] hc y) U (ix2 n j)
      = z (ix2 n j) + ∑ e : Fin E, if (y (ix1 e)).toInt = (n.val : Int) then U (ix2 e j) else 0 := by
  rw [Cert.LibScatterRows.host_eq, Cert.LibScatterRows.scatterAdd2_apply d h1 h2 h3 h4,
    Cert.LibScatterRows.sum_inEdges]
  refine congrArg (z (ix2 n j) + ·) (Finset.sum_congr rfl fun e _ => ?_)
  rw [column_apply hc y e]

/-- Rows gathered by a column of row numbers: entry (e, k) is the table's at (the number clamped into the table, k). -/
theorem gather_column_apply (d : GatherDims ⟨2, ![250000, 64]⟩ ⟨2, ![E, 1]⟩ ⟨2, ![E, 64]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, 64]) (hc : (⟨1, ![E]⟩ : Shape).BroadcastsInDim ⟨2, ![E, 1]⟩ ![0])
    (cur : FVec Ideal ⟨2, ![250000, 64]⟩ .f32) (y : IVec ⟨1, ![E]⟩ 32) (e : Fin E) (k : Fin 64) :
    Host.gather d cur (broadcastInDim ⟨2, ![E, 1]⟩ ![0] hc y) (ix2 e k)
      = cur (ix2 (Cert.LibGatherRows.rowOf (y (ix1 e))) k) := by
  rw [Cert.LibGatherRows.gather2_apply d h1 h2 h3 h4 h5 h6 h7, column_apply]

end Columns

/-! ## The two hops read at an entry -/

section Hops
open Cert.Spec
variable [hK : Cert.KernelIdeal.Facts₀] [hR : Cert.ReferenceIdeal.Facts₀]

/-- A source number wrapped: a negative one has 250000 added. -/
def wrap (v : BitVec 32) : BitVec 32 :=
  Scalar.select (IntOp.cmpi .slt v 0#32) (IntOp.addi v 250000#32) v

/-- One edge's contribution to entry (n, j), from its destination number d, source number s and value v:
    v · cur (s wrapped and clamped, j) when d read signed is n, else nothing. -/
def term (cur : FVec Ideal Cert.ReferenceIdeal.S250000x64 .f32) (n : Fin 250000) (j : Fin 64)
    (d s : BitVec 32) (v : EReal) : EReal :=
  if d.toInt = (n.val : Int) then v * cur (ix2 (Cert.LibGatherRows.rowOf (wrap s)) j) else 0

theorem wrapR_apply (x3 : IVec Cert.ReferenceIdeal.S1200000 32) (e : Fin 1200000) :
    wrapR x3 (ix1 e) = wrap (x3 (ix1 e)) := rfl

theorem wrapK_apply (y3 : IVec Cert.KernelIdeal.S1204224 32) (e : Fin 1204224) :
    wrapK y3 (ix1 e) = wrap (y3 (ix1 e)) := rfl

/-- Edge e's message at column k over the edges as given. -/
theorem msgsR_apply (x3 : IVec Cert.ReferenceIdeal.S1200000 32) (x4 : FVec Ideal Cert.ReferenceIdeal.S1200000 .f32)
    (cur : FVec Ideal Cert.ReferenceIdeal.S250000x64 .f32) (e : Fin 1200000) (k : Fin 64) :
    msgsR (F := Ideal) x3 x4 cur (ix2 e k)
      = x4 (ix1 e) * cur (ix2 (Cert.LibGatherRows.rowOf (wrap (x3 (ix1 e)))) k) := by
  unfold msgsR
  rw [mulf_apply, alongRows_apply, column_apply, gather_column_apply _ rfl rfl rfl rfl rfl rfl rfl, wrapR_apply]

/-- The hop over the edges as given, at entry (n, j). -/
theorem layerR_apply (x2 x3 : IVec Cert.ReferenceIdeal.S1200000 32) (x4 : FVec Ideal Cert.ReferenceIdeal.S1200000 .f32)
    (cur : FVec Ideal Cert.ReferenceIdeal.S250000x64 .f32) (n : Fin 250000) (j : Fin 64) :
    layerR (F := Ideal) x2 x3 x4 cur (ix2 n j)
      = Ideal.ofBits .f32 0x00000000#32
        + ∑ e : Fin 1200000, term cur n j (x2 (ix1 e)) (x3 (ix1 e)) (x4 (ix1 e)) := by
  unfold layerR
  rw [scatter_column_apply _ rfl rfl rfl rfl]
  refine congrArg₂ (· + ·) rfl (Finset.sum_congr rfl fun e _ => ?_)
  rw [msgsR_apply]
  rfl

/-- Row e of the scaled matrix at column k. -/
theorem scaleRows_apply (v : FVec Ideal Cert.KernelIdeal.S1204224 .f32) (g : FVec Ideal Cert.KernelIdeal.S1204224x64 .f32)
    (e : Fin 1204224) (k : Fin 64) : scaleRows (F := Ideal) v g (ix2 e k) = v (ix1 e) * g (ix2 e k) := by
  show v _ * g (ix2 e k) = v (ix1 e) * g (ix2 e k)
  refine congrArg (fun i => v i * g (ix2 e k)) (funext fun a => ?_)
  match a with
  | ⟨0, _⟩ => rfl

/-- The gathered rows over the extended arrays at (e, k). -/
theorem rowsK_apply (y3 : IVec Cert.KernelIdeal.S1204224 32) (cur : FVec Ideal Cert.KernelIdeal.S250000x64 .f32)
    (e : Fin 1204224) (k : Fin 64) :
    rowsK (F := Ideal) y3 cur (ix2 e k) = cur (ix2 (Cert.LibGatherRows.rowOf (wrap (y3 (ix1 e)))) k) := by
  unfold rowsK
  rw [gather_column_apply _ rfl rfl rfl rfl rfl rfl rfl, wrapK_apply]

/-- The hop over extended arrays y2, y3, y4, at entry (n, j). -/
theorem hopK_apply (y2 y3 : IVec Cert.KernelIdeal.S1204224 32) (y4 : FVec Ideal Cert.KernelIdeal.S1204224 .f32)
    (cur : FVec Ideal Cert.KernelIdeal.S250000x64 .f32) (n : Fin 250000) (j : Fin 64) :
    sumRowsK (F := Ideal) y2 (scaleRows y4 (rowsK y3 cur)) (ix2 n j)
      = Ideal.ofBits .f32 0x00000000#32
        + ∑ e : Fin 1204224, term cur n j (y2 (ix1 e)) (y3 (ix1 e)) (y4 (ix1 e)) := by
  unfold sumRowsK
  rw [scatter_column_apply _ rfl rfl rfl rfl]
  refine congrArg₂ (· + ·) rfl (Finset.sum_congr rfl fun e _ => ?_)
  rw [scaleRows_apply, rowsK_apply]
  rfl

end Hops

/-! ## The extended arrays read at an entry, and the equality -/

section Main
open Cert.Spec
variable [hK : Cert.KernelIdeal.Facts₀] [hR : Cert.ReferenceIdeal.Facts₀]

/-- Below 1200000 an extended integer array is the given one. -/
theorem padI_inside (x : IVec Cert.KernelIdeal.S1200000 32) (e' : Fin 1204224) (e : Fin 1200000)
    (he : e'.val = e.val) : padI x (ix1 e') = x (ix1 e) := by
  unfold padI
  exact extend_inside _ x _ _ e' e he

/-- Below 1200000 the extended value array is the given one. -/
theorem padF_inside (x : FVec Ideal Cert.KernelIdeal.S1200000 .f32) (e' : Fin 1204224) (e : Fin 1200000)
    (he : e'.val = e.val) : padF (F := Ideal) x (ix1 e') = x (ix1 e) := by
  unfold padF
  exact extend_inside _ x _ _ e' e he

/-- From 1200000 on the extended value array holds the integer 0 converted to a float: 0. -/
theorem padF_outside (x : FVec Ideal Cert.KernelIdeal.S1200000 .f32) (e' : Fin 1204224)
    (he : 1200000 ≤ e'.val) : padF (F := Ideal) x (ix1 e') = 0 := by
  unfold padF
  rw [extend_outside _ x _ _ e' he]
  show (((0#32 : BitVec 32).toInt : ℝ) : EReal) = 0
  rw [BitVec.toInt_zero, Int.cast_zero, EReal.coe_zero]

/-- An edge with value 0 contributes nothing, whatever its destination and source numbers. -/
theorem term_zero (cur : FVec Ideal Cert.ReferenceIdeal.S250000x64 .f32) (n : Fin 250000) (j : Fin 64)
    (d s : BitVec 32) : term cur n j d s 0 = 0 := by
  unfold term
  rw [zero_mul, ite_self]

end Main

theorem layerK_eq_layerR [Cert.KernelIdeal.Facts₀] [Cert.ReferenceIdeal.Facts₀]
    (x2 x3 : IVec Cert.ReferenceIdeal.S1200000 32) (x4 : FVec Ideal Cert.ReferenceIdeal.S1200000 .f32)
    (cur : FVec Ideal Cert.ReferenceIdeal.S250000x64 .f32) :
    Cert.Spec.layerK (F := Ideal) x2 x3 x4 cur = Cert.Spec.layerR (F := Ideal) x2 x3 x4 cur := by
  funext i
  obtain ⟨n, j, rfl⟩ : ∃ (n : Fin 250000) (j : Fin 64), i = ix2 n j := ⟨i 0, i 1, eq_ix2 i⟩
  rw [layerR_apply]
  unfold Cert.Spec.layerK
  rw [hopK_apply]
  refine congrArg (Ideal.ofBits .f32 0x00000000#32 + ·) ?_
  refine sum_extend (E := 1200000) (P := 4224) _ _ (fun e => ?_) (fun p => ?_)
  · rw [padI_inside x2 _ e rfl, padI_inside x3 _ e rfl, padF_inside x4 _ e rfl]
  · rw [padF_outside x4 _ (Nat.le_add_right 1200000 p.val), term_zero]

end Cert.LayerEq

end
-- ==== Proof.Sum1.lean ====
/-
  Pallas call 1 adds two 250000 × 64 tables block by block: grid point t takes rows 5000·t … 5000·t + 4999 of
  both operands and writes their entrywise sum to the same rows of the result. The 50 blocks tile the table, so
  whatever the operands hold when the call is entered, the result ends as their entrywise sum.
-/
import proofs.«105449_j51419348468395_1_alg».proof.Proof.Gen.KernelIdeal.Frame
import Idealize.ShloMosaic.Lib.Pipeline.Value

set_option maxRecDepth 16384

noncomputable section

namespace Cert.KernelIdeal.Sum1

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The entrywise sum of two tables. -/
abbrev total (a0 a1 : S250000x64.Idx → Elt F .f32) : S250000x64.Idx → Elt F .f32 := fun i => FloatOps.addf (a0 i) (a1 i)

/-- The body's stored value is the entrywise sum of its two loaded blocks (the casts between equal shapes are the identity). -/
theorem stored_eq (x0 x1 : Vec F S5000x64 .f32) : k1_pay1 x0 x1 = addf x0 x1 := by
  unfold k1_pay1
  rw [shapeCast_self, shapeCast_self]

/-- The three index maps, decided over the 50 grid points: every window's block at point t is block row t, column 0. -/
theorem maps : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = t.val
    ∧ win1_2.index t (1 : Fin 2) = 0 :=
  (by decide +kernel : ∀ t : Fin grid1.N, _)

/-- What point t writes back is block t of the entrywise sum of the two operand tables. -/
theorem written (c : Dev nD) (t : Fin cfg1.N) :
    (dat1 V c).flushed 2 t = ((cfg1.win 2).blk t).view.read (Elt F) (total (V c main_v0) (V c main_v14)) := by
  show (cfg1.win 2).cut (grid1.coords t) ((dat1 V c).after 2 t) = _
  rw [after1_2]
  unfold out1_2
  rw [View.canon_unit_zero origin]
  simp only [View.ld_unit_zero (S := S5000x64) origin]
  rw [stored_eq]
  obtain ⟨e0, e1, e2, e3, e4, e5⟩ := maps t
  funext j
  show FloatOps.addf (V c main_v0 (((cfg1.win 0).blk t).view.emb j)) (V c main_v14 (((cfg1.win 1).blk t).view.emb j))
    = FloatOps.addf (V c main_v0 (((cfg1.win 2).blk t).view.emb j)) (V c main_v14 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 64 + 1 * (j 1).val = win1_2.index t (1 : Fin 2) * 64 + 1 * (j 1).val; omega
  rw [h0, h1]

/-- An entry of the result table is in point t's block iff each coordinate is in the block's range on its axis. -/
theorem in_block (t : Fin cfg1.N) (i : S250000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v15).slice (win1_2.rect t)).set ↔ _
  rw [View.set_slice_whole, Rect.mem_set_unit]
  exact Iff.rfl

/-- Row r of the result lies in the block of point r / 5000: the blocks tile the table. -/
theorem tiled (i : S250000x64.Idx) : ∃ t : Fin cfg1.N, (cfg1.win 2).flush t = true ∧ i ∈ ((cfg1.win 2).blk t).view.set := by
  have hi0 : (i 0).val < 250000 := (i 0).isLt
  have hi1 : (i 1).val < 64 := (i 1).isLt
  have hN : cfg1.N = 50 := N_1
  have ht : (i 0).val / 5000 < cfg1.N := by rw [hN]; omega
  obtain ⟨e0, e1, e2, e3, e4, e5⟩ := maps ⟨(i 0).val / 5000, ht⟩
  refine ⟨⟨(i 0).val / 5000, ht⟩, flush1_2 _, ?_⟩
  rw [in_block]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [e5]
    omega

/-- The result table after the call: the entrywise sum of the two operand tables as the call found them. -/
theorem final (c : Dev nD) : (dat1 V c).arrAt 2 cfg1.N = total (V c main_v0) (V c main_v14) :=
  (dat1 V c).arrAt_eq_of_cover 2 _ (fun t _ => written V c t) (tiled)

end Cert.KernelIdeal.Sum1

end
-- ==== Proof.Sum3.lean ====
/-
  Pallas call 3 adds two 250000 × 64 tables block by block: grid point t takes rows 5000·t … 5000·t + 4999 of
  both operands and writes their entrywise sum to the same rows of the result. The 50 blocks tile the table, so
  whatever the operands hold when the call is entered, the result ends as their entrywise sum.
-/
import proofs.«105449_j51419348468395_1_alg».proof.Proof.Gen.KernelIdeal.Frame
import Idealize.ShloMosaic.Lib.Pipeline.Value

set_option maxRecDepth 16384

noncomputable section

namespace Cert.KernelIdeal.Sum3

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The entrywise sum of two tables. -/
abbrev total (a0 a1 : S250000x64.Idx → Elt F .f32) : S250000x64.Idx → Elt F .f32 := fun i => FloatOps.addf (a0 i) (a1 i)

/-- The body's stored value is the entrywise sum of its two loaded blocks (the casts between equal shapes are the identity). -/
theorem stored_eq (x0 x1 : Vec F S5000x64 .f32) : k3_pay1 x0 x1 = addf x0 x1 := by
  unfold k3_pay1
  rw [shapeCast_self, shapeCast_self]

/-- The three index maps, decided over the 50 grid points: every window's block at point t is block row t, column 0. -/
theorem maps : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) = t.val
    ∧ win3_2.index t (1 : Fin 2) = 0 :=
  (by decide +kernel : ∀ t : Fin grid3.N, _)

/-- What point t writes back is block t of the entrywise sum of the two operand tables. -/
theorem written (c : Dev nD) (t : Fin cfg3.N) :
    (dat3 V c).flushed 2 t = ((cfg3.win 2).blk t).view.read (Elt F) (total (V c main_v15) (V c main_v26)) := by
  show (cfg3.win 2).cut (grid3.coords t) ((dat3 V c).after 2 t) = _
  rw [after3_2]
  unfold out3_2
  rw [View.canon_unit_zero origin]
  simp only [View.ld_unit_zero (S := S5000x64) origin]
  rw [stored_eq]
  obtain ⟨e0, e1, e2, e3, e4, e5⟩ := maps t
  funext j
  show FloatOps.addf (V c main_v15 (((cfg3.win 0).blk t).view.emb j)) (V c main_v26 (((cfg3.win 1).blk t).view.emb j))
    = FloatOps.addf (V c main_v15 (((cfg3.win 2).blk t).view.emb j)) (V c main_v26 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 64 + 1 * (j 1).val = win3_2.index t (1 : Fin 2) * 64 + 1 * (j 1).val; omega
  rw [h0, h1]

/-- An entry of the result table is in point t's block iff each coordinate is in the block's range on its axis. -/
theorem in_block (t : Fin cfg3.N) (i : S250000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v27).slice (win3_2.rect t)).set ↔ _
  rw [View.set_slice_whole, Rect.mem_set_unit]
  exact Iff.rfl

/-- Row r of the result lies in the block of point r / 5000: the blocks tile the table. -/
theorem tiled (i : S250000x64.Idx) : ∃ t : Fin cfg3.N, (cfg3.win 2).flush t = true ∧ i ∈ ((cfg3.win 2).blk t).view.set := by
  have hi0 : (i 0).val < 250000 := (i 0).isLt
  have hi1 : (i 1).val < 64 := (i 1).isLt
  have hN : cfg3.N = 50 := N_3
  have ht : (i 0).val / 5000 < cfg3.N := by rw [hN]; omega
  obtain ⟨e0, e1, e2, e3, e4, e5⟩ := maps ⟨(i 0).val / 5000, ht⟩
  refine ⟨⟨(i 0).val / 5000, ht⟩, flush3_2 _, ?_⟩
  rw [in_block]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    rw [e5]
    omega

/-- The result table after the call: the entrywise sum of the two operand tables as the call found them. -/
theorem final (c : Dev nD) : (dat3 V c).arrAt 2 cfg3.N = total (V c main_v15) (V c main_v26) :=
  (dat3 V c).arrAt_eq_of_cover 2 _ (fun t _ => written V c t) (tiled)

end Cert.KernelIdeal.Sum3

end
-- ==== Proof.Sum5.lean ====
/-
  Pallas call 5 adds two 250000 × 64 tables block by block: grid point t takes rows 5000·t … 5000·t + 4999 of
  both operands and writes their entrywise sum to the same rows of the result. The 50 blocks tile the table, so
  whatever the operands hold when the call is entered, the result ends as their entrywise sum.
-/
import proofs.«105449_j51419348468395_1_alg».proof.Proof.Gen.KernelIdeal.Frame
import Idealize.ShloMosaic.Lib.Pipeline.Value

set_option maxRecDepth 16384

noncomputable section

namespace Cert.KernelIdeal.Sum5

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The entrywise sum of two tables. -/
abbrev total (a0 a1 : S250000x64.Idx → Elt F .f32) : S250000x64.Idx → Elt F .f32 := fun i => FloatOps.addf (a0 i) (a1 i)

/-- The body's stored value is the entrywise sum of its two loaded blocks (the casts between equal shapes are the identity). -/
theorem stored_eq (x0 x1 : Vec F S5000x64 .f32) : k5_pay1 x0 x1 = addf x0 x1 := by
  unfold k5_pay1
  rw [shapeCast_self, shapeCast_self]

/-- The three index maps, decided over the 50 grid points: every window's block at point t is block row t, column 0. -/
theorem maps : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) = t.val
    ∧ win5_2.index t (1 : Fin 2) = 0 :=
  (by decide +kernel : ∀ t : Fin grid5.N, _)

/-- What point t writes back is block t of the entrywise sum of the two operand tables. -/
theorem written (c : Dev nD) (t : Fin cfg5.N) :
    (dat5 V c).flushed 2 t = ((cfg5.win 2).blk t).view.read (Elt F) (total (V c main_v27) (V c main_v38)) := by
  show (cfg5.win 2).cut (grid5.coords t) ((dat5 V c).after 2 t) = _
  rw [after5_2]
  unfold out5_2
  rw [View.canon_unit_zero origin]
  simp only [View.ld_unit_zero (S := S5000x64) origin]
  rw [stored_eq]
  obtain ⟨e0, e1, e2, e3, e4, e5⟩ := maps t
  funext j
  show FloatOps.addf (V c main_v27 (((cfg5.win 0).blk t).view.emb j)) (V c main_v38 (((cfg5.win 1).blk t).view.emb j))
    = FloatOps.addf (V c main_v27 (((cfg5.win 2).blk t).view.emb j)) (V c main_v38 (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 5000 + 1 * (j 0).val = win5_2.index t (0 : Fin 2) * 5000 + 1 * (j 0).val; omega
    | ⟨1, _⟩ => show win5_1.index t (1 : Fin 2) * 64 + 1 * (j 1).val = win5_2.index t (1 : Fin 2) * 64 + 1 * (j 1).val; omega
  rw [h0, h1]

/-- An entry of the result table is in point t's block iff each coordinate is in the block's range on its axis. -/
theorem in_block (t : Fin cfg5.N) (i : S250000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v39).slice (win5_2.rect t)).set ↔ _
  rw [View.set_slice_whole, Rect.mem_set_unit]
  exact Iff.rfl

/-- Row r of the result lies in the block of point r / 5000: the blocks tile the table. -/
theorem tiled (i : S250000x64.Idx) : ∃ t : Fin cfg5.N, (cfg5.win 2).flush t = true ∧ i ∈ ((cfg5.win 2).blk t).view.set := by
  have hi0 : (i 0).val < 250000 := (i 0).isLt
  have hi1 : (i 1).val < 64 := (i 1).isLt
  have hN : cfg5.N = 50 := N_5
  have ht : (i 0).val / 5000 < cfg5.N := by rw [hN]; omega
  obtain ⟨e0, e1, e2, e3, e4, e5⟩ := maps ⟨(i 0).val / 5000, ht⟩
  refine ⟨⟨(i 0).val / 5000, ht⟩, flush5_2 _, ?_⟩
  rw [in_block]
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win5_2.index ⟨(i 0).val / 5000, ht⟩ (1 : Fin 2) * 64 ≤ (i 1).val ∧ (i 1).val < win5_2.index ⟨(i 0).val / 5000, ht⟩ (1 : Fin 2) * 64 + 64
    rw [e5]
    omega

/-- The result table after the call: the entrywise sum of the two operand tables as the call found them. -/
theorem final (c : Dev nD) : (dat5 V c).arrAt 2 cfg5.N = total (V c main_v27) (V c main_v38) :=
  (dat5 V c).arrAt_eq_of_cover 2 _ (fun t _ => written V c t) (tiled)

end Cert.KernelIdeal.Sum5

end
-- ==== Proof.LibColumn.lean ====
/-
  Two layout facts every keep-dimension row reduction meets: a vector of length a viewed as an [a, 1] column reads
  its entry at the row, and an [a, 1] column broadcast along the rows of an [a, b] matrix reads the column's entry
  at the row, whatever the column index.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Scale0.lean ====
/-
  Pallas call 0 scales the rows of a 1204224 × 64 matrix by a vector, block by block: grid point t takes entries
  8192·t … 8192·t + 8191 of the vector, views them as a column, repeats the column across the 64 columns, and
  multiplies entrywise with rows 8192·t … 8192·t + 8191 of the matrix. The 147 blocks tile the matrix, so whatever the
  operands hold when the call is entered, entry (e, k) of the result ends as (vector e) · (matrix (e, k)).
-/
import proofs.«105449_j51419348468395_1_alg».proof.Proof.Gen.KernelIdeal.Frame
import proofs.«105449_j51419348468395_1_alg».proof.Proof.Spec
import proofs.«105449_j51419348468395_1_alg».proof.Proof.LibColumn
import Idealize.ShloMosaic.Lib.Pipeline.Value
import Idealize.ShloMosaic.Lib.ValueIdx

set_option maxRecDepth 16384

noncomputable section

namespace Cert.KernelIdeal.Scale0

open Cert.KernelIdeal Cert.KernelIdeal.Gen Idealize.ShloMosaic Idealize.ShloMosaic.TcCoe Idealize.SL.Sem
open Idealize.ShloMosaic.Pipeline (Dat Cfg Window)
open Idealize.ShloMosaic.ValueIdx

variable {F : FTy → Type} [FloatOps F]
variable (V : (c : Dev nD) → (b : Ref sig .tc) → Buf (Elt F) ((c : Thread nD τ).loc b))

theorem origin1 : (![0] : Fin 1 → Nat) = fun _ => 0 := funext fun a => by fin_cases a; rfl
theorem origin2 : (![0, 0] : Fin 2 → Nat) = fun _ => 0 := funext fun a => by fin_cases a <;> rfl

/-- The body's stored value at (p, q): entry p of the loaded vector times entry (p, q) of the loaded block. The casts
    between equal shapes are the identity, the vector viewed as a column reads entry p at (p, 0), and the column
    repeated across the columns reads its row. -/
theorem stored_at (x0 : Vec F S8192 .f32) (x1 : Vec F S8192x64 .f32) (p : Fin 8192) (q : Fin 64) :
    k0_pay1 x0 x1 (ix2 p q) = FloatOps.mulf (x0 (ix1 p)) (x1 (ix2 p q)) := by
  unfold k0_pay1
  show FloatOps.mulf (broadcastTo S8192x64 (shapeCast S8192x1 (shapeCast S8192x1 (shapeCast S8192 x0 _) _) _) _ (ix2 p q))
      (shapeCast S8192x64 x1 _ (ix2 p q)) = _
  rw [shapeCast_self x1, shapeCast_self x0, shapeCast_self (shapeCast S8192x1 x0 _),
    Cert.LibColumn.broadcastTo_a1_ab_apply, Cert.LibColumn.shapeCast_a_a1_apply]

/-- The three index maps, decided over the 147 grid points: the vector's block at point t is block t, the two
    matrices' blocks are block row t, column 0. -/
theorem maps : ∀ t : Fin cfg0.N, win0_0.index t (0 : Fin 1) = win0_2.index t (0 : Fin 2)
    ∧ win0_1.index t (0 : Fin 2) = win0_2.index t (0 : Fin 2)
    ∧ win0_1.index t (1 : Fin 2) = win0_2.index t (1 : Fin 2)
    ∧ win0_2.index t (0 : Fin 2) = t.val
    ∧ win0_2.index t (1 : Fin 2) = 0 :=
  (by decide +kernel : ∀ t : Fin grid0.N, _)

/-- What point t writes back is block t of the row-scaled matrix. -/
theorem written (c : Dev nD) (t : Fin cfg0.N) :
    (dat0 V c).flushed 2 t = ((cfg0.win 2).blk t).view.read (Elt F) (Cert.Spec.scaleRows (V c main_v3) (V c main_v10)) := by
  show (cfg0.win 2).cut (grid0.coords t) ((dat0 V c).after 2 t) = _
  rw [after0_2]
  unfold out0_2
  rw [View.canon_unit_zero origin2]
  simp only [View.ld_unit_zero (S := S8192) origin1, View.ld_unit_zero (S := S8192x64) origin2]
  obtain ⟨e0, e1, e2, e3, e4⟩ := maps t
  funext j
  obtain ⟨p, q, rfl⟩ : ∃ (p : Fin 8192) (q : Fin 64), j = ix2 p q := ⟨j 0, j 1, eq_ix2 j⟩
  refine Eq.trans (stored_at (F := F) (iblk0 V c 0 t) (iblk0 V c 1 t) p q) ?_
  show FloatOps.mulf (V c main_v3 (((cfg0.win 0).blk t).view.emb (ix1 p))) (V c main_v10 (((cfg0.win 1).blk t).view.emb (ix2 p q)))
    = Cert.Spec.scaleRows (V c main_v3) (V c main_v10) (((cfg0.win 2).blk t).view.emb (ix2 p q))
  unfold Cert.Spec.scaleRows
  refine congrArg₂ FloatOps.mulf (congrArg (V c main_v3) ?_) (congrArg (V c main_v10) ?_)
  · funext a; apply Fin.ext
    match a with
    | ⟨0, _⟩ => show win0_0.index t (0 : Fin 1) * 8192 + 1 * p.val = win0_2.index t (0 : Fin 2) * 8192 + 1 * p.val; omega
  · funext a; apply Fin.ext
    match a with
    | ⟨0, _⟩ => show win0_1.index t (0 : Fin 2) * 8192 + 1 * p.val = win0_2.index t (0 : Fin 2) * 8192 + 1 * p.val; omega
    | ⟨1, _⟩ => show win0_1.index t (1 : Fin 2) * 64 + 1 * q.val = win0_2.index t (1 : Fin 2) * 64 + 1 * q.val; omega

/-- An entry of the result matrix is in point t's block iff each coordinate is in the block's range on its axis. -/
theorem in_block (t : Fin cfg0.N) (i : S1204224x64.Idx) :
    i ∈ ((cfg0.win 2).blk t).view.set ↔ ∀ a : Fin 2, win0_2.index t a * S8192x64.size a ≤ (i a).val ∧ (i a).val < win0_2.index t a * S8192x64.size a + S8192x64.size a := by
  show i ∈ ((View.whole main_v11).slice (win0_2.rect t)).set ↔ _
  rw [View.set_slice_whole, Rect.mem_set_unit]
  exact Iff.rfl

/-- Row e of the result lies in the block of point e / 8192: the blocks tile the matrix. -/
theorem tiled (i : S1204224x64.Idx) : ∃ t : Fin cfg0.N, (cfg0.win 2).flush t = true ∧ i ∈ ((cfg0.win 2).blk t).view.set := by
  have hi0 : (i 0).val < 1204224 := (i 0).isLt
  have hi1 : (i 1).val < 64 := (i 1).isLt
  have hN : cfg0.N = 147 := N_0
  have ht : (i 0).val / 8192 < cfg0.N := by rw [hN]; omega
  obtain ⟨e0, e1, e2, e3, e4⟩ := maps ⟨(i 0).val / 8192, ht⟩
  refine ⟨⟨(i 0).val / 8192, ht⟩, flush0_2 _, ?_⟩
  rw [in_block]
  intro a
  match a with
  | ⟨0, _⟩ =>
    show win0_2.index ⟨(i 0).val / 8192, ht⟩ (0 : Fin 2) * 8192 ≤ (i 0).val ∧ (i 0).val < win0_2.index ⟨(i 0).val / 8192, ht⟩ (0 : Fin 2) * 8192 + 8192
    rw [e3]
    show (i 0).val / 8192 * 8192 ≤ (i 0).val ∧ (i 0).val < (i 0).val / 8192 * 8192 + 8192
    omega
  | ⟨1, _⟩ =>
    show win0_2.index ⟨(i 0).val / 8192, ht⟩ (1 : Fin 2) * 64 ≤ (i 1).val ∧ (i 1).val < win0_2.index ⟨(i 0).val / 8192, ht⟩ (1 : Fin 2) * 64 + 64
    rw [e4]
    omega

/-- The result matrix after the call: the matrix's rows scaled by the vector, both as the call found them. -/
theorem final (c : Dev nD) : (dat0 V c).arrAt 2 cfg0.N = Cert.Spec.scaleRows (V c main_v3) (V c main_v10) :=
  (dat0 V c).arrAt_eq_of_cover 2 _ (fun t _ => written V c t) (tiled)

end Cert.KernelIdeal.Scale0

end
-- ==== Proof.Scale2.lean ====
/-
  Pallas call 2 scales the rows of a 1204224 × 64 matrix by a vector, block by block: grid point t takes entries
  8192·t … 8192·t + 8191 of the vector, views them as a column, repeats the column across the 64 columns, and
  multiplies entrywise with rows 8192·t … 8192·t + 8191 of the matrix. The 147 blocks tile the matrix, so whatever the
  operands hold when the call is entered, entry (e, k) of the result ends as (vector e) · (matrix (e, k)).
-/
import proofs.«105449_j51419348468395_1_alg».proof.Proof.Gen.KernelIdeal.Frame
import proofs.«105449_j51419348468395_1_alg».proof.Proof.Spec
import proofs.«105449_j51419348468395_1_alg».proof.Proof.LibColumn
import Idealize.ShloMosaic.Lib.Pipeline.Value
import Idealize.ShloMosaic.Lib.ValueIdx

set_option maxRecDepth 16384

noncomputable section

namespace Cert.KernelIdeal.Scale2

open Cert.KernelIdeal Cert.KernelIdeal.Gen Idealize.ShloMosaic Idealize.ShloMosaic.TcCoe Idealize.SL.Sem
open Idealize.ShloMosaic.Pipeline (Dat Cfg Window)
open Idealize.ShloMosaic.ValueIdx

variable {F : FTy → Type} [FloatOps F]
variable (V : (c : Dev nD) → (b : Ref sig .tc) → Buf (Elt F) ((c : Thread nD τ).loc b))

theorem origin1 : (![0] : Fin 1 → Nat) = fun _ => 0 := funext fun a => by fin_cases a; rfl
theorem origin2 : (![0, 0] : Fin 2 → Nat) = fun _ => 0 := funext fun a => by fin_cases a <;> rfl

/-- The body's stored value at (p, q): entry p of the loaded vector times entry (p, q) of the loaded block. The casts
    between equal shapes are the identity, the vector viewed as a column reads entry p at (p, 0), and the column
    repeated across the columns reads its row. -/
theorem stored_at (x0 : Vec F S8192 .f32) (x1 : Vec F S8192x64 .f32) (p : Fin 8192) (q : Fin 64) :
    k2_pay1 x0 x1 (ix2 p q) = FloatOps.mulf (x0 (ix1 p)) (x1 (ix2 p q)) := by
  unfold k2_pay1
  show FloatOps.mulf (broadcastTo S8192x64 (shapeCast S8192x1 (shapeCast S8192x1 (shapeCast S8192 x0 _) _) _) _ (ix2 p q))
      (shapeCast S8192x64 x1 _ (ix2 p q)) = _
  rw [shapeCast_self x1, shapeCast_self x0, shapeCast_self (shapeCast S8192x1 x0 _),
    Cert.LibColumn.broadcastTo_a1_ab_apply, Cert.LibColumn.shapeCast_a_a1_apply]

/-- The three index maps, decided over the 147 grid points: the vector's block at point t is block t, the two
    matrices' blocks are block row t, column 0. -/
theorem maps : ∀ t : Fin cfg2.N, win2_0.index t (0 : Fin 1) = win2_2.index t (0 : Fin 2)
    ∧ win2_1.index t (0 : Fin 2) = win2_2.index t (0 : Fin 2)
    ∧ win2_1.index t (1 : Fin 2) = win2_2.index t (1 : Fin 2)
    ∧ win2_2.index t (0 : Fin 2) = t.val
    ∧ win2_2.index t (1 : Fin 2) = 0 :=
  (by decide +kernel : ∀ t : Fin grid2.N, _)

/-- What point t writes back is block t of the row-scaled matrix. -/
theorem written (c : Dev nD) (t : Fin cfg2.N) :
    (dat2 V c).flushed 2 t = ((cfg2.win 2).blk t).view.read (Elt F) (Cert.Spec.scaleRows (V c main_v3) (V c main_v22)) := by
  show (cfg2.win 2).cut (grid2.coords t) ((dat2 V c).after 2 t) = _
  rw [after2_2]
  unfold out2_2
  rw [View.canon_unit_zero origin2]
  simp only [View.ld_unit_zero (S := S8192) origin1, View.ld_unit_zero (S := S8192x64) origin2]
  obtain ⟨e0, e1, e2, e3, e4⟩ := maps t
  funext j
  obtain ⟨p, q, rfl⟩ : ∃ (p : Fin 8192) (q : Fin 64), j = ix2 p q := ⟨j 0, j 1, eq_ix2 j⟩
  refine Eq.trans (stored_at (F := F) (iblk2 V c 0 t) (iblk2 V c 1 t) p q) ?_
  show FloatOps.mulf (V c main_v3 (((cfg2.win 0).blk t).view.emb (ix1 p))) (V c main_v22 (((cfg2.win 1).blk t).view.emb (ix2 p q)))
    = Cert.Spec.scaleRows (V c main_v3) (V c main_v22) (((cfg2.win 2).blk t).view.emb (ix2 p q))
  unfold Cert.Spec.scaleRows
  refine congrArg₂ FloatOps.mulf (congrArg (V c main_v3) ?_) (congrArg (V c main_v22) ?_)
  · funext a; apply Fin.ext
    match a with
    | ⟨0, _⟩ => show win2_0.index t (0 : Fin 1) * 8192 + 1 * p.val = win2_2.index t (0 : Fin 2) * 8192 + 1 * p.val; omega
  · funext a; apply Fin.ext
    match a with
    | ⟨0, _⟩ => show win2_1.index t (0 : Fin 2) * 8192 + 1 * p.val = win2_2.index t (0 : Fin 2) * 8192 + 1 * p.val; omega
    | ⟨1, _⟩ => show win2_1.index t (1 : Fin 2) * 64 + 1 * q.val = win2_2.index t (1 : Fin 2) * 64 + 1 * q.val; omega

/-- An entry of the result matrix is in point t's block iff each coordinate is in the block's range on its axis. -/
theorem in_block (t : Fin cfg2.N) (i : S1204224x64.Idx) :
    i ∈ ((cfg2.win 2).blk t).view.set ↔ ∀ a : Fin 2, win2_2.index t a * S8192x64.size a ≤ (i a).val ∧ (i a).val < win2_2.index t a * S8192x64.size a + S8192x64.size a := by
  show i ∈ ((View.whole main_v23).slice (win2_2.rect t)).set ↔ _
  rw [View.set_slice_whole, Rect.mem_set_unit]
  exact Iff.rfl

/-- Row e of the result lies in the block of point e / 8192: the blocks tile the matrix. -/
theorem tiled (i : S1204224x64.Idx) : ∃ t : Fin cfg2.N, (cfg2.win 2).flush t = true ∧ i ∈ ((cfg2.win 2).blk t).view.set := by
  have hi0 : (i 0).val < 1204224 := (i 0).isLt
  have hi1 : (i 1).val < 64 := (i 1).isLt
  have hN : cfg2.N = 147 := N_2
  have ht : (i 0).val / 8192 < cfg2.N := by rw [hN]; omega
  obtain ⟨e0, e1, e2, e3, e4⟩ := maps ⟨(i 0).val / 8192, ht⟩
  refine ⟨⟨(i 0).val / 8192, ht⟩, flush2_2 _, ?_⟩
  rw [in_block]
  intro a
  match a with
  | ⟨0, _⟩ =>
    show win2_2.index ⟨(i 0).val / 8192, ht⟩ (0 : Fin 2) * 8192 ≤ (i 0).val ∧ (i 0).val < win2_2.index ⟨(i 0).val / 8192, ht⟩ (0 : Fin 2) * 8192 + 8192
    rw [e3]
    show (i 0).val / 8192 * 8192 ≤ (i 0).val ∧ (i 0).val < (i 0).val / 8192 * 8192 + 8192
    omega
  | ⟨1, _⟩ =>
    show win2_2.index ⟨(i 0).val / 8192, ht⟩ (1 : Fin 2) * 64 ≤ (i 1).val ∧ (i 1).val < win2_2.index ⟨(i 0).val / 8192, ht⟩ (1 : Fin 2) * 64 + 64
    rw [e4]
    omega

/-- The result matrix after the call: the matrix's rows scaled by the vector, both as the call found them. -/
theorem final (c : Dev nD) : (dat2 V c).arrAt 2 cfg2.N = Cert.Spec.scaleRows (V c main_v3) (V c main_v22) :=
  (dat2 V c).arrAt_eq_of_cover 2 _ (fun t _ => written V c t) (tiled)

end Cert.KernelIdeal.Scale2

end
-- ==== Proof.Scale4.lean ====
/-
  Pallas call 4 scales the rows of a 1204224 × 64 matrix by a vector, block by block: grid point t takes entries
  8192·t … 8192·t + 8191 of the vector, views them as a column, repeats the column across the 64 columns, and
  multiplies entrywise with rows 8192·t … 8192·t + 8191 of the matrix. The 147 blocks tile the matrix, so whatever the
  operands hold when the call is entered, entry (e, k) of the result ends as (vector e) · (matrix (e, k)).
-/
import proofs.«105449_j51419348468395_1_alg».proof.Proof.Gen.KernelIdeal.Frame
import proofs.«105449_j51419348468395_1_alg».proof.Proof.Spec
import proofs.«105449_j51419348468395_1_alg».proof.Proof.LibColumn
import Idealize.ShloMosaic.Lib.Pipeline.Value
import Idealize.ShloMosaic.Lib.ValueIdx

set_option maxRecDepth 16384

noncomputable section

namespace Cert.KernelIdeal.Scale4

open Cert.KernelIdeal Cert.KernelIdeal.Gen Idealize.ShloMosaic Idealize.ShloMosaic.TcCoe Idealize.SL.Sem
open Idealize.ShloMosaic.Pipeline (Dat Cfg Window)
open Idealize.ShloMosaic.ValueIdx

variable {F : FTy → Type} [FloatOps F]
variable (V : (c : Dev nD) → (b : Ref sig .tc) → Buf (Elt F) ((c : Thread nD τ).loc b))

theorem origin1 : (![0] : Fin 1 → Nat) = fun _ => 0 := funext fun a => by fin_cases a; rfl
theorem origin2 : (![0, 0] : Fin 2 → Nat) = fun _ => 0 := funext fun a => by fin_cases a <;> rfl

/-- The body's stored value at (p, q): entry p of the loaded vector times entry (p, q) of the loaded block. The casts
    between equal shapes are the identity, the vector viewed as a column reads entry p at (p, 0), and the column
    repeated across the columns reads its row. -/
theorem stored_at (x0 : Vec F S8192 .f32) (x1 : Vec F S8192x64 .f32) (p : Fin 8192) (q : Fin 64) :
    k4_pay1 x0 x1 (ix2 p q) = FloatOps.mulf (x0 (ix1 p)) (x1 (ix2 p q)) := by
  unfold k4_pay1
  show FloatOps.mulf (broadcastTo S8192x64 (shapeCast S8192x1 (shapeCast S8192x1 (shapeCast S8192 x0 _) _) _) _ (ix2 p q))
      (shapeCast S8192x64 x1 _ (ix2 p q)) = _
  rw [shapeCast_self x1, shapeCast_self x0, shapeCast_self (shapeCast S8192x1 x0 _),
    Cert.LibColumn.broadcastTo_a1_ab_apply, Cert.LibColumn.shapeCast_a_a1_apply]

/-- The three index maps, decided over the 147 grid points: the vector's block at point t is block t, the two
    matrices' blocks are block row t, column 0. -/
theorem maps : ∀ t : Fin cfg4.N, win4_0.index t (0 : Fin 1) = win4_2.index t (0 : Fin 2)
    ∧ win4_1.index t (0 : Fin 2) = win4_2.index t (0 : Fin 2)
    ∧ win4_1.index t (1 : Fin 2) = win4_2.index t (1 : Fin 2)
    ∧ win4_2.index t (0 : Fin 2) = t.val
    ∧ win4_2.index t (1 : Fin 2) = 0 :=
  (by decide +kernel : ∀ t : Fin grid4.N, _)

/-- What point t writes back is block t of the row-scaled matrix. -/
theorem written (c : Dev nD) (t : Fin cfg4.N) :
    (dat4 V c).flushed 2 t = ((cfg4.win 2).blk t).view.read (Elt F) (Cert.Spec.scaleRows (V c main_v3) (V c main_v34)) := by
  show (cfg4.win 2).cut (grid4.coords t) ((dat4 V c).after 2 t) = _
  rw [after4_2]
  unfold out4_2
  rw [View.canon_unit_zero origin2]
  simp only [View.ld_unit_zero (S := S8192) origin1, View.ld_unit_zero (S := S8192x64) origin2]
  obtain ⟨e0, e1, e2, e3, e4⟩ := maps t
  funext j
  obtain ⟨p, q, rfl⟩ : ∃ (p : Fin 8192) (q : Fin 64), j = ix2 p q := ⟨j 0, j 1, eq_ix2 j⟩
  refine Eq.trans (stored_at (F := F) (iblk4 V c 0 t) (iblk4 V c 1 t) p q) ?_
  show FloatOps.mulf (V c main_v3 (((cfg4.win 0).blk t).view.emb (ix1 p))) (V c main_v34 (((cfg4.win 1).blk t).view.emb (ix2 p q)))
    = Cert.Spec.scaleRows (V c main_v3) (V c main_v34) (((cfg4.win 2).blk t).view.emb (ix2 p q))
  unfold Cert.Spec.scaleRows
  refine congrArg₂ FloatOps.mulf (congrArg (V c main_v3) ?_) (congrArg (V c main_v34) ?_)
  · funext a; apply Fin.ext
    match a with
    | ⟨0, _⟩ => show win4_0.index t (0 : Fin 1) * 8192 + 1 * p.val = win4_2.index t (0 : Fin 2) * 8192 + 1 * p.val; omega
  · funext a; apply Fin.ext
    match a with
    | ⟨0, _⟩ => show win4_1.index t (0 : Fin 2) * 8192 + 1 * p.val = win4_2.index t (0 : Fin 2) * 8192 + 1 * p.val; omega
    | ⟨1, _⟩ => show win4_1.index t (1 : Fin 2) * 64 + 1 * q.val = win4_2.index t (1 : Fin 2) * 64 + 1 * q.val; omega

/-- An entry of the result matrix is in point t's block iff each coordinate is in the block's range on its axis. -/
theorem in_block (t : Fin cfg4.N) (i : S1204224x64.Idx) :
    i ∈ ((cfg4.win 2).blk t).view.set ↔ ∀ a : Fin 2, win4_2.index t a * S8192x64.size a ≤ (i a).val ∧ (i a).val < win4_2.index t a * S8192x64.size a + S8192x64.size a := by
  show i ∈ ((View.whole main_v35).slice (win4_2.rect t)).set ↔ _
  rw [View.set_slice_whole, Rect.mem_set_unit]
  exact Iff.rfl

/-- Row e of the result lies in the block of point e / 8192: the blocks tile the matrix. -/
theorem tiled (i : S1204224x64.Idx) : ∃ t : Fin cfg4.N, (cfg4.win 2).flush t = true ∧ i ∈ ((cfg4.win 2).blk t).view.set := by
  have hi0 : (i 0).val < 1204224 := (i 0).isLt
  have hi1 : (i 1).val < 64 := (i 1).isLt
  have hN : cfg4.N = 147 := N_4
  have ht : (i 0).val / 8192 < cfg4.N := by rw [hN]; omega
  obtain ⟨e0, e1, e2, e3, e4⟩ := maps ⟨(i 0).val / 8192, ht⟩
  refine ⟨⟨(i 0).val / 8192, ht⟩, flush4_2 _, ?_⟩
  rw [in_block]
  intro a
  match a with
  | ⟨0, _⟩ =>
    show win4_2.index ⟨(i 0).val / 8192, ht⟩ (0 : Fin 2) * 8192 ≤ (i 0).val ∧ (i 0).val < win4_2.index ⟨(i 0).val / 8192, ht⟩ (0 : Fin 2) * 8192 + 8192
    rw [e3]
    show (i 0).val / 8192 * 8192 ≤ (i 0).val ∧ (i 0).val < (i 0).val / 8192 * 8192 + 8192
    omega
  | ⟨1, _⟩ =>
    show win4_2.index ⟨(i 0).val / 8192, ht⟩ (1 : Fin 2) * 64 ≤ (i 1).val ∧ (i 1).val < win4_2.index ⟨(i 0).val / 8192, ht⟩ (1 : Fin 2) * 64 + 64
    rw [e4]
    omega

/-- The result matrix after the call: the matrix's rows scaled by the vector, both as the call found them. -/
theorem final (c : Dev nD) : (dat4 V c).arrAt 2 cfg4.N = Cert.Spec.scaleRows (V c main_v3) (V c main_v34) :=
  (dat4 V c).arrAt_eq_of_cover 2 _ (fun t _ => written V c t) (tiled)

end Cert.KernelIdeal.Scale4

end
-- ==== Proof.Chain.lean ====
/-
  The idealized kernel program's result, read back through its 18 segments to the five launch arrays.

  Between the six block-pipelined calls the program runs stretches of host operations. Walking the buffer contents
  forward from the launch: the first stretches build the node table, extend the three edge arrays by 4224 zeros and
  gather the table's rows at the edges' sources; call 0 scales the gathered rows by the edge values; the next stretch
  sums them into their destination rows (the first hop); call 1 adds that to the table; and the same three steps
  repeat twice more from the previous hop. A buffer that a stretch does not write, or that a call neither writes nor
  holds as an operand, keeps its contents across that segment; an operand array of a call is left as the call found it.
-/
import proofs.«105449_j51419348468395_1_alg».proof.Proof.Gen.KernelIdeal.Frame
import proofs.«105449_j51419348468395_1_alg».proof.Proof.Spec
import proofs.«105449_j51419348468395_1_alg».proof.Proof.Sum1
import proofs.«105449_j51419348468395_1_alg».proof.Proof.Sum3
import proofs.«105449_j51419348468395_1_alg».proof.Proof.Sum5
import proofs.«105449_j51419348468395_1_alg».proof.Proof.Scale0
import proofs.«105449_j51419348468395_1_alg».proof.Proof.Scale2
import proofs.«105449_j51419348468395_1_alg».proof.Proof.Scale4
import proofs.«105449_j51419348468395_1_alg».proof.Proof.Gen.ReferenceIdeal
import Idealize.ShloMosaic.Lib.StableHlo.Run
import Idealize.ShloMosaic.Lib.Pipeline.Value

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A buffer that no operation of a stretch writes holds after the stretch what it held before. -/
macro "unwritten" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (c : Dev nD)

/-- The node table: the user rows followed by the item rows. -/
abbrev tbl : FVec F S250000x64 .f32 := Cert.Spec.table (F := F) (m ((c : Thread nD τ).loc main_arg0)) (m ((c : Thread nD τ).loc main_arg1))
/-- The destination numbers, the source numbers and the edge values, each extended by 4224 zeros. -/
abbrev dst : IVec S1204224 32 := Cert.Spec.padI (m ((c : Thread nD τ).loc main_arg2))
abbrev src : IVec S1204224 32 := Cert.Spec.padI (m ((c : Thread nD τ).loc main_arg3))
abbrev wts : FVec F S1204224 .f32 := Cert.Spec.padF (F := F) (m ((c : Thread nD τ).loc main_arg4))
/-- One hop: gather the rows at the sources, scale them by the values, sum them into the destinations. -/
abbrev hop (cur : FVec F S250000x64 .f32) : FVec F S250000x64 .f32 :=
  Cert.Spec.sumRowsK (dst m c) (Cert.Spec.scaleRows (wts m c) (Cert.Spec.rowsK (src m c) cur))

/-! ## Before the first call: the table, the three extended edge arrays, and the first gather -/

theorem at7_v0 : W7 m ρ c (Proc.devRef .tc main_v0) = tbl m c := by
  dsimp only [W7, W6, W5, W4, W3, W2, W1]; after_results; rfl
theorem at7_v1 : W7 m ρ c (Proc.devRef .tc main_v1) = dst m c := by
  dsimp only [W7, W6, W5, W4, W3, W2, W1]; after_results; rfl
theorem at7_v2 : W7 m ρ c (Proc.devRef .tc main_v2) = src m c := by
  dsimp only [W7, W6, W5, W4, W3, W2, W1]; after_results; rfl
theorem at7_v3 : W7 m ρ c (Proc.devRef .tc main_v3) = wts m c := by
  dsimp only [W7, W6, W5, W4, W3, W2, W1]; after_results; rfl
theorem at6_v0 : W6 m ρ c (Proc.devRef .tc main_v0) = tbl m c := by
  dsimp only [W6, W5, W4, W3, W2, W1]; after_results; rfl
theorem at6_v2 : W6 m ρ c (Proc.devRef .tc main_v2) = src m c := by
  dsimp only [W6, W5, W4, W3, W2, W1]; after_results; rfl
/-- The last stretch before call 0 gathers, whatever it starts from, the rows of the table it finds at the wrapped
    source numbers it finds. -/
theorem gathered (W : Valuation τ sig (Elt F)) : StableHlo.after hostOps0_6 W (Proc.devRef .tc main_v10)
    = Cert.Spec.rowsK (W (Proc.devRef .tc main_v2)) (W (Proc.devRef .tc main_v0)) := by
  after_results; rfl
theorem at7_v10 : W7 m ρ c (Proc.devRef .tc main_v10) = Cert.Spec.rowsK (src m c) (tbl m c) :=
  (gathered (W6 m ρ c)).trans (congrArg₂ Cert.Spec.rowsK (at6_v2 m ρ c) (at6_v0 m ρ c))

/-! ## Call 0 scales the gathered rows; the stretch after it sums them: the first hop -/

theorem at8_v0 : W8 m ρ c (Proc.devRef .tc main_v0) = tbl m c := (W8_of_ne m ρ c main_v0 (by decide)).trans (at7_v0 m ρ c)
theorem at8_v1 : W8 m ρ c (Proc.devRef .tc main_v1) = dst m c := (W8_of_ne m ρ c main_v1 (by decide)).trans (at7_v1 m ρ c)
theorem at8_v2 : W8 m ρ c (Proc.devRef .tc main_v2) = src m c := (W8_of_ne m ρ c main_v2 (by decide)).trans (at7_v2 m ρ c)
theorem at8_v3 : W8 m ρ c (Proc.devRef .tc main_v3) = wts m c := (W8_arr m ρ c 0).trans
  (((dat0 (V7 m ρ) c).arrAt_in 0 rfl _).trans ((A_eq0 (V7 m ρ) c 0).trans (at7_v3 m ρ c)))
theorem at8_v11 : W8 m ρ c (Proc.devRef .tc main_v11) = Cert.Spec.scaleRows (wts m c) (Cert.Spec.rowsK (src m c) (tbl m c)) :=
  (W8_arr m ρ c 2).trans ((Cert.KernelIdeal.Scale0.final (V7 m ρ) c).trans
    (congrArg₂ Cert.Spec.scaleRows (at7_v3 m ρ c) (at7_v10 m ρ c)))

theorem at9_v0 : W9 m ρ c (Proc.devRef .tc main_v0) = tbl m c :=
  (show W9 m ρ c (Proc.devRef .tc main_v0) = W8 m ρ c (Proc.devRef .tc main_v0) by unwritten hostOps1).trans (at8_v0 m ρ c)
theorem at9_v1 : W9 m ρ c (Proc.devRef .tc main_v1) = dst m c :=
  (show W9 m ρ c (Proc.devRef .tc main_v1) = W8 m ρ c (Proc.devRef .tc main_v1) by unwritten hostOps1).trans (at8_v1 m ρ c)
theorem at9_v2 : W9 m ρ c (Proc.devRef .tc main_v2) = src m c :=
  (show W9 m ρ c (Proc.devRef .tc main_v2) = W8 m ρ c (Proc.devRef .tc main_v2) by unwritten hostOps1).trans (at8_v2 m ρ c)
theorem at9_v3 : W9 m ρ c (Proc.devRef .tc main_v3) = wts m c :=
  (show W9 m ρ c (Proc.devRef .tc main_v3) = W8 m ρ c (Proc.devRef .tc main_v3) by unwritten hostOps1).trans (at8_v3 m ρ c)
theorem at9_v14 : W9 m ρ c (Proc.devRef .tc main_v14) = hop m c (tbl m c) := by
  have e : W9 m ρ c (Proc.devRef .tc main_v14)
      = Cert.Spec.sumRowsK (W8 m ρ c (Proc.devRef .tc main_v1)) (W8 m ρ c (Proc.devRef .tc main_v11)) := by
    dsimp only [W9]; after_results; rfl
  rw [e, at8_v1, at8_v11]

/-! ## Call 1 adds the first hop to the table; the stretch after it gathers from the first hop -/

theorem at10_v1 : W10 m ρ c (Proc.devRef .tc main_v1) = dst m c := (W10_of_ne m ρ c main_v1 (by decide)).trans (at9_v1 m ρ c)
theorem at10_v2 : W10 m ρ c (Proc.devRef .tc main_v2) = src m c := (W10_of_ne m ρ c main_v2 (by decide)).trans (at9_v2 m ρ c)
theorem at10_v3 : W10 m ρ c (Proc.devRef .tc main_v3) = wts m c := (W10_of_ne m ρ c main_v3 (by decide)).trans (at9_v3 m ρ c)
theorem at10_v14 : W10 m ρ c (Proc.devRef .tc main_v14) = hop m c (tbl m c) := (W10_arr m ρ c 1).trans
  (((dat1 (V9 m ρ) c).arrAt_in 1 rfl _).trans ((A_eq1 (V9 m ρ) c 1).trans (at9_v14 m ρ c)))
theorem at10_v15 : W10 m ρ c (Proc.devRef .tc main_v15) = addf (tbl m c) (hop m c (tbl m c)) :=
  (W10_arr m ρ c 2).trans ((Cert.KernelIdeal.Sum1.final (V9 m ρ) c).trans
    (congrArg₂ addf (at9_v0 m ρ c) (at9_v14 m ρ c)))

theorem at11_v1 : W11 m ρ c (Proc.devRef .tc main_v1) = dst m c :=
  (show W11 m ρ c (Proc.devRef .tc main_v1) = W10 m ρ c (Proc.devRef .tc main_v1) by unwritten hostOps2).trans (at10_v1 m ρ c)
theorem at11_v2 : W11 m ρ c (Proc.devRef .tc main_v2) = src m c :=
  (show W11 m ρ c (Proc.devRef .tc main_v2) = W10 m ρ c (Proc.devRef .tc main_v2) by unwritten hostOps2).trans (at10_v2 m ρ c)
theorem at11_v3 : W11 m ρ c (Proc.devRef .tc main_v3) = wts m c :=
  (show W11 m ρ c (Proc.devRef .tc main_v3) = W10 m ρ c (Proc.devRef .tc main_v3) by unwritten hostOps2).trans (at10_v3 m ρ c)
theorem at11_v15 : W11 m ρ c (Proc.devRef .tc main_v15) = addf (tbl m c) (hop m c (tbl m c)) :=
  (show W11 m ρ c (Proc.devRef .tc main_v15) = W10 m ρ c (Proc.devRef .tc main_v15) by unwritten hostOps2).trans (at10_v15 m ρ c)
theorem at11_v22 : W11 m ρ c (Proc.devRef .tc main_v22) = Cert.Spec.rowsK (src m c) (hop m c (tbl m c)) := by
  have e : W11 m ρ c (Proc.devRef .tc main_v22)
      = Cert.Spec.rowsK (W10 m ρ c (Proc.devRef .tc main_v2)) (W10 m ρ c (Proc.devRef .tc main_v14)) := by
    dsimp only [W11]; after_results; rfl
  rw [e, at10_v2, at10_v14]

/-! ## Call 2 and the stretch after it: the second hop -/

theorem at12_v1 : W12 m ρ c (Proc.devRef .tc main_v1) = dst m c := (W12_of_ne m ρ c main_v1 (by decide)).trans (at11_v1 m ρ c)
theorem at12_v2 : W12 m ρ c (Proc.devRef .tc main_v2) = src m c := (W12_of_ne m ρ c main_v2 (by decide)).trans (at11_v2 m ρ c)
theorem at12_v3 : W12 m ρ c (Proc.devRef .tc main_v3) = wts m c := (W12_arr m ρ c 0).trans
  (((dat2 (V11 m ρ) c).arrAt_in 0 rfl _).trans ((A_eq2 (V11 m ρ) c 0).trans (at11_v3 m ρ c)))
theorem at12_v15 : W12 m ρ c (Proc.devRef .tc main_v15) = addf (tbl m c) (hop m c (tbl m c)) :=
  (W12_of_ne m ρ c main_v15 (by decide)).trans (at11_v15 m ρ c)
theorem at12_v23 : W12 m ρ c (Proc.devRef .tc main_v23)
    = Cert.Spec.scaleRows (wts m c) (Cert.Spec.rowsK (src m c) (hop m c (tbl m c))) :=
  (W12_arr m ρ c 2).trans ((Cert.KernelIdeal.Scale2.final (V11 m ρ) c).trans
    (congrArg₂ Cert.Spec.scaleRows (at11_v3 m ρ c) (at11_v22 m ρ c)))

theorem at13_v1 : W13 m ρ c (Proc.devRef .tc main_v1) = dst m c :=
  (show W13 m ρ c (Proc.devRef .tc main_v1) = W12 m ρ c (Proc.devRef .tc main_v1) by unwritten hostOps3).trans (at12_v1 m ρ c)
theorem at13_v2 : W13 m ρ c (Proc.devRef .tc main_v2) = src m c :=
  (show W13 m ρ c (Proc.devRef .tc main_v2) = W12 m ρ c (Proc.devRef .tc main_v2) by unwritten hostOps3).trans (at12_v2 m ρ c)
theorem at13_v3 : W13 m ρ c (Proc.devRef .tc main_v3) = wts m c :=
  (show W13 m ρ c (Proc.devRef .tc main_v3) = W12 m ρ c (Proc.devRef .tc main_v3) by unwritten hostOps3).trans (at12_v3 m ρ c)
theorem at13_v15 : W13 m ρ c (Proc.devRef .tc main_v15) = addf (tbl m c) (hop m c (tbl m c)) :=
  (show W13 m ρ c (Proc.devRef .tc main_v15) = W12 m ρ c (Proc.devRef .tc main_v15) by unwritten hostOps3).trans (at12_v15 m ρ c)
theorem at13_v26 : W13 m ρ c (Proc.devRef .tc main_v26) = hop m c (hop m c (tbl m c)) := by
  have e : W13 m ρ c (Proc.devRef .tc main_v26)
      = Cert.Spec.sumRowsK (W12 m ρ c (Proc.devRef .tc main_v1)) (W12 m ρ c (Proc.devRef .tc main_v23)) := by
    dsimp only [W13]; after_results; rfl
  rw [e, at12_v1, at12_v23]

/-! ## Call 3 adds the second hop; the stretch after it gathers from the second hop -/

theorem at14_v1 : W14 m ρ c (Proc.devRef .tc main_v1) = dst m c := (W14_of_ne m ρ c main_v1 (by decide)).trans (at13_v1 m ρ c)
theorem at14_v2 : W14 m ρ c (Proc.devRef .tc main_v2) = src m c := (W14_of_ne m ρ c main_v2 (by decide)).trans (at13_v2 m ρ c)
theorem at14_v3 : W14 m ρ c (Proc.devRef .tc main_v3) = wts m c := (W14_of_ne m ρ c main_v3 (by decide)).trans (at13_v3 m ρ c)
theorem at14_v26 : W14 m ρ c (Proc.devRef .tc main_v26) = hop m c (hop m c (tbl m c)) := (W14_arr m ρ c 1).trans
  (((dat3 (V13 m ρ) c).arrAt_in 1 rfl _).trans ((A_eq3 (V13 m ρ) c 1).trans (at13_v26 m ρ c)))
theorem at14_v27 : W14 m ρ c (Proc.devRef .tc main_v27)
    = addf (addf (tbl m c) (hop m c (tbl m c))) (hop m c (hop m c (tbl m c))) :=
  (W14_arr m ρ c 2).trans ((Cert.KernelIdeal.Sum3.final (V13 m ρ) c).trans
    (congrArg₂ addf (at13_v15 m ρ c) (at13_v26 m ρ c)))

theorem at15_v1 : W15 m ρ c (Proc.devRef .tc main_v1) = dst m c :=
  (show W15 m ρ c (Proc.devRef .tc main_v1) = W14 m ρ c (Proc.devRef .tc main_v1) by unwritten hostOps4).trans (at14_v1 m ρ c)
theorem at15_v3 : W15 m ρ c (Proc.devRef .tc main_v3) = wts m c :=
  (show W15 m ρ c (Proc.devRef .tc main_v3) = W14 m ρ c (Proc.devRef .tc main_v3) by unwritten hostOps4).trans (at14_v3 m ρ c)
theorem at15_v27 : W15 m ρ c (Proc.devRef .tc main_v27)
    = addf (addf (tbl m c) (hop m c (tbl m c))) (hop m c (hop m c (tbl m c))) :=
  (show W15 m ρ c (Proc.devRef .tc main_v27) = W14 m ρ c (Proc.devRef .tc main_v27) by unwritten hostOps4).trans (at14_v27 m ρ c)
theorem at15_v34 : W15 m ρ c (Proc.devRef .tc main_v34) = Cert.Spec.rowsK (src m c) (hop m c (hop m c (tbl m c))) := by
  have e : W15 m ρ c (Proc.devRef .tc main_v34)
      = Cert.Spec.rowsK (W14 m ρ c (Proc.devRef .tc main_v2)) (W14 m ρ c (Proc.devRef .tc main_v26)) := by
    dsimp only [W15]; after_results; rfl
  rw [e, at14_v2, at14_v26]

/-! ## Call 4 and the stretch after it: the third hop -/

theorem at16_v1 : W16 m ρ c (Proc.devRef .tc main_v1) = dst m c := (W16_of_ne m ρ c main_v1 (by decide)).trans (at15_v1 m ρ c)
theorem at16_v27 : W16 m ρ c (Proc.devRef .tc main_v27)
    = addf (addf (tbl m c) (hop m c (tbl m c))) (hop m c (hop m c (tbl m c))) :=
  (W16_of_ne m ρ c main_v27 (by decide)).trans (at15_v27 m ρ c)
theorem at16_v35 : W16 m ρ c (Proc.devRef .tc main_v35)
    = Cert.Spec.scaleRows (wts m c) (Cert.Spec.rowsK (src m c) (hop m c (hop m c (tbl m c)))) :=
  (W16_arr m ρ c 2).trans ((Cert.KernelIdeal.Scale4.final (V15 m ρ) c).trans
    (congrArg₂ Cert.Spec.scaleRows (at15_v3 m ρ c) (at15_v34 m ρ c)))

theorem at17_v27 : W17 m ρ c (Proc.devRef .tc main_v27)
    = addf (addf (tbl m c) (hop m c (tbl m c))) (hop m c (hop m c (tbl m c))) :=
  (show W17 m ρ c (Proc.devRef .tc main_v27) = W16 m ρ c (Proc.devRef .tc main_v27) by unwritten hostOps5).trans (at16_v27 m ρ c)
theorem at17_v38 : W17 m ρ c (Proc.devRef .tc main_v38) = hop m c (hop m c (hop m c (tbl m c))) := by
  have e : W17 m ρ c (Proc.devRef .tc main_v38)
      = Cert.Spec.sumRowsK (W16 m ρ c (Proc.devRef .tc main_v1)) (W16 m ρ c (Proc.devRef .tc main_v35)) := by
    dsimp only [W17]; after_results; rfl
  rw [e, at16_v1, at16_v35]

/-! ## Call 5 adds the third hop: the result -/

/-- The result buffer at the last boundary is the table plus its first three hops over the extended edge arrays. -/
theorem result : W18 m ρ c (Proc.devRef .tc main_v39)
    = Cert.Spec.resultK (F := F) (m ((c : Thread nD τ).loc main_arg0)) (m ((c : Thread nD τ).loc main_arg1)) (m ((c : Thread nD τ).loc main_arg2)) (m ((c : Thread nD τ).loc main_arg3)) (m ((c : Thread nD τ).loc main_arg4)) :=
  (W18_arr m ρ c 2).trans ((Cert.KernelIdeal.Sum5.final (V17 m ρ) c).trans
    (congrArg₂ addf (at17_v27 m ρ c) (at17_v38 m ρ c)))

end Cert.KernelIdeal.Chain

end
-- ==== Proof.RunNamed.lean ====
/-
  The idealized kernel program's run with its result named. The program is 18 segments in order: stretches of host
  operations and six block-pipelined calls. The buffer contents at each segment boundary are a fold from the launch
  memory (`W0` … `W18` of the generated frame module). Every weakly fair execution terminates without a fault; in the
  final state every buffer that outlives the calls holds the last fold's contents. Read at the result buffer this names
  the result as `W18` there; read at the five argument buffers it says they end as launched.
-/
import proofs.«105449_j51419348468395_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument arrays end as launched. -/
theorem run_named : θ_run defs (onTc (τ := τ) (main (F := F))) ⟨m, fun _ => 0, ρ⟩ (fun r => ∀ c : Dev nD,
      r.2.mem ((c.tc : Thread nD τ).loc main_v39) = W18 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v39 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c)⟩)

end Cert.KernelIdeal.RunNamed

end
-- ==== Proof.RefResult.lean ====
/-
  The reference program's result as one function of its five inputs: the generated run names the result by the
  composed term of the program's 52 host operations; grouped by hop, that term is the node table plus its first three
  hops over the 1200000 edges as given.
-/
import proofs.«105449_j51419348468395_1_alg».proof.Proof.Gen.ReferenceIdeal.Read
import proofs.«105449_j51419348468395_1_alg».proof.Proof.Spec

noncomputable section

namespace Cert.ReferenceIdeal.Result

open Cert.ReferenceIdeal Cert.ReferenceIdeal.Gen Idealize.ShloMosaic Idealize.ShloMosaic.TcCoe Idealize.SL.Sem

variable {F : FTy → Type} [FloatOps F]

/-- The last stage of the reference's run is the table plus its first three hops. -/
theorem stage_eq (x0 : FVec F S100000x64 .f32) (x1 : FVec F S150000x64 .f32) (x2 x3 : IVec S1200000 32) (x4 : FVec F S1200000 .f32) :
    Cert.ReferenceIdeal.Read.val_main_v42 (F := F) x0 x1 x2 x3 x4 = Cert.Spec.resultR x0 x1 x2 x3 x4 := rfl

/-- The run's result term, in the launch arrays. -/
theorem result (m : (ℓ : Loc nD τ sig) → Buf (Elt F) ℓ) (c : Dev nD) :
    Cert.ReferenceIdeal.Value.res_main_v42 m c
      = Cert.Spec.resultR (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
  (Cert.ReferenceIdeal.Read.val_main_v42_eq m c).trans (stage_eq _ _ _ _ _)

end Cert.ReferenceIdeal.Result

end
-- ==== Proof.Bridge.lean ====
/-
  The two programs end with one result. The idealized kernel's result is the node table plus its first three hops
  with the edge arrays extended by 4224 zero edges; the reference's is the same with the edges as given. One hop is
  one function either way (a zero edge adds 0 · (row 0) = 0 to row 0), so the three hops and their sums agree.
-/
import proofs.«105449_j51419348468395_1_alg».proof.Defs
import proofs.«105449_j51419348468395_1_alg».proof.Proof.Spec
import proofs.«105449_j51419348468395_1_alg».proof.Proof.LayerEq
import proofs.«105449_j51419348468395_1_alg».proof.Proof.Chain
import proofs.«105449_j51419348468395_1_alg».proof.Proof.RunNamed
import proofs.«105449_j51419348468395_1_alg».proof.Proof.RefResult
import proofs.«105449_j51419348468395_1_alg».proof.Proof.Gen.Pre_finite_inputs

noncomputable section

namespace Cert.Bridge

open Idealize.ShloMosaic Idealize.ShloMosaic.TcCoe Idealize.SL.Sem

/-- Three hops over the extended edge arrays are three hops over the edges as given. -/
theorem result_eq (x0 : FVec Ideal Cert.ReferenceIdeal.S100000x64 .f32) (x1 : FVec Ideal Cert.ReferenceIdeal.S150000x64 .f32)
    (x2 x3 : IVec Cert.ReferenceIdeal.S1200000 32) (x4 : FVec Ideal Cert.ReferenceIdeal.S1200000 .f32) :
    Cert.Spec.resultK (F := Ideal) x0 x1 x2 x3 x4 = Cert.Spec.resultR (F := Ideal) x0 x1 x2 x3 x4 := by
  unfold Cert.Spec.resultK Cert.Spec.resultR
  simp only [Cert.LayerEq.layerK_eq_layerR]

/-- From memories agreeing on the five arguments both idealized programs run to the end, the kernel's result buffer and
    the reference's holding the same table, and neither changes its arguments. -/
theorem algebraic : Cert.algebraic_KernelIdeal_ReferenceIdeal := by
  intro m ρ m' ρ' _ hagree
  refine ⟨fun c => Cert.Spec.resultK (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Chain.result m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Result.result m' c, (hagree c).1, (hagree c).2.1, (hagree c).2.2.1, (hagree c).2.2.2.1, (hagree c).2.2.2.2]
    exact (result_eq _ _ _ _ _).symm

end Cert.Bridge

end
-- ==== Proof.lean ====
/-
  A three-layer graph encoder: the node table (100000 user rows on top of 150000 item rows, width 64) plus three hops
  of a sparse matrix product over 1200000 edges, each hop taking a table to the table whose row n is the sum over the
  edges into n of (edge value) · (the previous table's row at the edge's source).

  The kernel program rounds the edge count up to 1204224 = 147 · 8192 by appending 4224 edges with destination 0,
  source 0 and value 0, gathers the source rows and sums into the destination rows with host operations, and runs two
  kinds of block-pipelined calls: one scales the gathered rows by the edge values 8192 rows at a time, one adds two
  tables 5000 rows at a time. The reference does the same arithmetic on the edges as given with host operations only.

  Over the extended reals the two agree exactly: every block-pipelined call computes its whole-array function because
  its blocks tile the array; an appended edge contributes 0 · (row 0) = 0, and adding 0 changes nothing; the sums are
  taken in the same order on both sides. Finiteness of the inputs is not used. The ideal pass rewrote nothing, so the
  idealized kernel is the kernel's own text read over the extended reals.
-/
import proofs.«105449_j51419348468395_1_alg».proof.Defs
import proofs.«105449_j51419348468395_1_alg».proof.Proof.Gen.Kernel
import proofs.«105449_j51419348468395_1_alg».proof.Proof.Gen.Kernel.Skeleton
import proofs.«105449_j51419348468395_1_alg».proof.Proof.Gen.Kernel.Launch
import proofs.«105449_j51419348468395_1_alg».proof.Proof.Gen.Kernel.Points
import proofs.«105449_j51419348468395_1_alg».proof.Proof.Gen.Kernel.Frame
import proofs.«105449_j51419348468395_1_alg».proof.Proof.Gen.KernelIdeal
import proofs.«105449_j51419348468395_1_alg».proof.Proof.Gen.KernelIdeal.Skeleton
import proofs.«105449_j51419348468395_1_alg».proof.Proof.Gen.KernelIdeal.Launch
import proofs.«105449_j51419348468395_1_alg».proof.Proof.Gen.KernelIdeal.Points
import proofs.«105449_j51419348468395_1_alg».proof.Proof.Gen.KernelIdeal.Frame
import proofs.«105449_j51419348468395_1_alg».proof.Proof.Gen.ReferenceIdeal
import proofs.«105449_j51419348468395_1_alg».proof.Proof.Gen.Pre_finite_inputs
import proofs.«105449_j51419348468395_1_alg».proof.Proof.Gen.ReferenceIdeal.Run
import proofs.«105449_j51419348468395_1_alg».proof.Proof.Gen.ReferenceIdeal.Read
import proofs.«105449_j51419348468395_1_alg».proof.Proof.Bridge
import Idealize.ShloMosaic.Adequacy
import Idealize.ShloMosaic.Init

noncomputable section

namespace Cert.Proof

open Idealize.ShloMosaic Idealize.SL.Sem Cert.Kernel

/-- The kernel program as printed runs to the end without a fault and leaves its arguments as launched. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference is host operations only: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals: nothing to preserve. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, Cert.Bridge.algebraic⟩

end Cert.Proof

end
